-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x16 : Shape := ⟨3, ![128, 1024, 16]⟩
abbrev S16x64 : Shape := ⟨2, ![16, 64]⟩
abbrev S16 : Shape := ⟨1, ![16]⟩
abbrev S_ : Shape := ⟨0, ![]⟩

class Facts : Prop where
  bcast_S_S128x1024x16 : S_.BroadcastsInDim S128x1024x16 (![] : Fin 0 → Fin S128x1024x16.rank)
  reducesTo_S128x1024x16_S_d0_1_2 : S128x1024x16.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S128x1024x16 .f32) (main_arg1 : FVec F S16x64 .f32) (main_arg2 : FVec F S16 .f32) (main_arg3 : FVec F S16x64 .f32) : IVec S_ 1 :=
  let main_v0 : FVec F S128x1024x16 .f32 := Host.absf main_arg0
  let main_cst : FVec F S_ .f32 := constant S_ .f32 0x7F800000#32
  let main_v1 : FVec F S128x1024x16 .f32 := broadcastInDim S128x1024x16 ![] bcast_S_S128x1024x16 main_cst
  let main_v2 : IVec S128x1024x16 1 := cmpf .olt main_v0 main_v1
  let main_c : IVec S_ 1 := constantI S_ 1 1#1
  let main_v3 : IVec S_ 1 := (fun x v => Host.reduce IntOp.andi x v reducesTo_S128x1024x16_S_d0_1_2 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Kernel.lean ====
abbrev S128x1024x16 : Shape := ⟨3, ![128, 1024, 16]⟩
abbrev S16x64 : Shape := ⟨2, ![16, 64]⟩
abbrev S16 : Shape := ⟨1, ![16]⟩
abbrev S131072x16 : Shape := ⟨2, ![131072, 16]⟩
abbrev S2x65536x16 : Shape := ⟨3, ![2, 65536, 16]⟩
abbrev S1x1024 : Shape := ⟨2, ![1, 1024]⟩
abbrev S1024 : Shape := ⟨1, ![1024]⟩
abbrev S_ : Shape := ⟨0, ![]⟩
abbrev S2x1x1024 : Shape := ⟨3, ![2, 1, 1024]⟩
abbrev S1x1024x16 : Shape := ⟨3, ![1, 1024, 16]⟩
abbrev S1x1x1024 : Shape := ⟨3, ![1, 1, 1024]⟩
abbrev S1024x16 : Shape := ⟨2, ![1024, 16]⟩
abbrev S1024x16x1 : Shape := ⟨3, ![1024, 16, 1]⟩
abbrev S1024x16x64 : Shape := ⟨3, ![1024, 16, 64]⟩
abbrev S1024x1024 : Shape := ⟨2, ![1024, 1024]⟩
abbrev S2x1024 : Shape := ⟨2, ![2, 1024]⟩
abbrev S16x1 : Shape := ⟨2, ![16, 1]⟩

abbrev nBuf : Space → Nat
  | .hbm => 35
  | .vmem => 7
  | .smem => 0
  | _ => 0

abbrev bufTy : (tb : Table) → Fin (tcTables nBuf tb) → BufTy
  | .hbm, ⟨0, _⟩ => ⟨S128x1024x16, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S131072x16, .f32⟩
  | .hbm, ⟨5, _⟩ => ⟨S2x65536x16, .f32⟩
  | .hbm, ⟨6, _⟩ => ⟨S1x1024, .f32⟩
  | .hbm, ⟨7, _⟩ => ⟨S16x64, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S2x1x1024, .f32⟩
  | .hbm, ⟨14, _⟩ => ⟨S2x1024, .f32⟩
  | .hbm, ⟨15, _⟩ => ⟨S_, .f32⟩
  | .hbm, ⟨16, _⟩ => ⟨S1024, .f32⟩
  | .hbm, ⟨17, _⟩ => ⟨S16x64, .f32⟩
  | .hbm, ⟨18, _⟩ => ⟨S_, .f32⟩
  | .hbm, ⟨19, _⟩ => ⟨S16x64, .f32⟩
  | .hbm, ⟨20, _⟩ => ⟨S16x64, .f32⟩
  | .hbm, ⟨21, _⟩ => ⟨S16x1, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x1024x16, .f32⟩
  | .local _ .vmem, ⟨1, _⟩ => ⟨S1x1024x16, .f32⟩
  | .local _ .vmem, ⟨2, _⟩ => ⟨S1x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S2x1x1024, .f32⟩
  | _, _ => ⟨S128x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let v33 : Index := Scalar.indexCast arg0
  let c0_13 : Index := 0#32
  let c0_14 : Index := 0#32
  ![v33.toNat, 0, 0]
def k0_off2 (i : grid0.Coords) : Fin 3 → Nat :=
  let arg0 : BitVec 32 := BitVec.ofNat 32 (i 0).val
  let v21 : Index := Scalar.indexCast arg0
  let c0_7 : Index := 0#32
  let c0_8 : Index := 0#32
  ![v21.toNat, 0, 0]
def k0_cond2 (i : grid0.Coords) : BitVec 1 :=
  let arg1 : BitVec 32 := BitVec.ofNat 32 (i 1).val
  let c63_i32 : BitVec 32 := 63#32
  let v29 : BitVec 1 := Scalar.cmpi .eq arg1 c63_i32
  let v30 : BitVec 32 := Scalar.extui v29
  let c0_i32_11 : BitVec 32 := 0#32
  let v31 : BitVec 1 := Scalar.cmpi .ne v30 c0_i32_11
  v31

def k0_off3 (i : grid0.Coords) : Fin 3 → Nat :=
  let arg0 : BitVec 32 := BitVec.ofNat 32 (i 0).val
  let v32 : Index := Scalar.indexCast arg0
  let c0_12 : Index := 0#32
  let c0_13 : Index := 0#32
  ![v32.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S128x1024x16_S131072x16 : S128x1024x16.ShapeCasts S131072x16
  shapeCasts_S131072x16_S2x65536x16 : S131072x16.ShapeCasts S2x65536x16
  shapeCasts_S16x64_S1x1024 : S16x64.ShapeCasts S1x1024
  bcast_S16_S16x64_0 : S16.BroadcastsInDim S16x64 (![0] : Fin 1 → Fin S16x64.rank)
  shapeCasts_S16x64_S1024 : S16x64.ShapeCasts S1024
  bcast_S_S1024 : S_.BroadcastsInDim S1024 (![] : Fin 0 → Fin S1024.rank)
  shapeCasts_S1024_S1x1024 : S1024.ShapeCasts S1x1024
  h_S1x1x1024 : 0 < S1x1x1024.numel
  shapeCasts_S1x1x1024_S1x1024 : S1x1x1024.ShapeCasts S1x1024
  shapeCasts_S1x1024_S1x1x1024 : S1x1024.ShapeCasts S1x1x1024
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  shapeCasts_S1024x16_S1024x16x1 : S1024x16.ShapeCasts S1024x16x1
  broadcasts_S1024x16x1_S1024x16x64 : S1024x16x1.Broadcasts S1024x16x64
  shapeCasts_S1024x16x64_S1024x1024 : S1024x16x64.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  natLt_1_32 : 1 < 32
  reduces_S1024x1024_S1024 : S1024x1024.Reduces [0] S1024
  inb_S1x1x1024_S1x1x1024_0_0_0 : ∀ a, (![0, 0, 0] : Fin 3 → Nat) a + S1x1x1024.size a ≤ S1x1x1024.size a
  shapeCasts_S2x1x1024_S2x1024 : S2x1x1024.ShapeCasts S2x1024
  reducesTo_S2x1024_S1024_d0 : S2x1024.ReducesTo [0] S1024
  h_S_ : 0 < S_.numel
  shapeCasts_S1024_S16x64 : S1024.ShapeCasts S16x64
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  reducesTo_S16x64_S16_d1 : S16x64.ReducesTo [1] S16
  bcast_S_S16 : S_.BroadcastsInDim S16 (![] : Fin 0 → Fin S16.rank)
  reducesTo_S16_S_d0 : S16.ReducesTo [0] S_
  hrank0 : 0 < grid0.rank
  k0_off1_inb : ∀ i : grid0.Coords, ∀ (k0_h1 : k0_cond1 i = 1#1), ∀ a, (k0_off1 i) a + S1x1x1024.size a ≤ S2x1x1024.size a
  k0_off2_inb : ∀ i : grid0.Coords, ∀ a, (k0_off2 i) a + S1x1x1024.size a ≤ S2x1x1024.size a
  k0_off3_inb : ∀ i : grid0.Coords, ∀ (k0_h2 : k0_cond2 i = 1#1), ∀ a, (k0_off3 i) a + S1x1x1024.size a ≤ S2x1x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x16.size a ≤ S2x65536x16.size a
  hwx0_0 : ∀ i : grid0.Coords, EltTy.bits .f32 = 32 ∨ (Rect.block (s := S2x65536x16) S1x1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)

variable [Facts₀]

abbrev win0_0 : Pipeline.Window sig grid0 :=
  Pipeline.Window.ofSpec (Memref.whole main_v1) S1x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x1024x16 : Shape := ⟨3, ![128, 1024, 16]⟩
abbrev S16x64 : Shape := ⟨2, ![16, 64]⟩
abbrev S16 : Shape := ⟨1, ![16]⟩
abbrev S131072x16 : Shape := ⟨2, ![131072, 16]⟩
abbrev S131072x16x1 : Shape := ⟨3, ![131072, 16, 1]⟩
abbrev S1x16x64 : Shape := ⟨3, ![1, 16, 64]⟩
abbrev S131072x16x64 : Shape := ⟨3, ![131072, 16, 64]⟩
abbrev S1x16x1 : Shape := ⟨3, ![1, 16, 1]⟩
abbrev S_ : Shape := ⟨0, ![]⟩
abbrev S16x1 : Shape := ⟨2, ![16, 1]⟩

abbrev nBuf : Space → Nat
  | .hbm => 43
  | .vmem => 0
  | .smem => 0
  | _ => 0

abbrev bufTy : (tb : Table) → Fin (tcTables nBuf tb) → BufTy
  | .hbm, ⟨0, _⟩ => ⟨S128x1024x16, .f32⟩
  | .hbm, ⟨1, _⟩ => ⟨S16x64, .f32⟩
  | .hbm, ⟨2, _⟩ => ⟨S16, .f32⟩
  | .hbm, ⟨3, _⟩ => ⟨S16x64, .f32⟩
  | .hbm, ⟨4, _⟩ => ⟨S131072x16, .f32⟩
  | .hbm, ⟨5, _⟩ => ⟨S131072x16x1, .f32⟩
  | .hbm, ⟨6, _⟩ => ⟨S1x16x64, .f32⟩
  | .hbm, ⟨7, _⟩ => ⟨S131072x16x64, .f32⟩
  | .hbm, ⟨8, _⟩ => ⟨S131072x16x64, .f32⟩
  | .hbm, ⟨9, _⟩ => ⟨S131072x16x64, .f32⟩
  | .hbm, ⟨10, _⟩ => ⟨S131072x16x64, .f32⟩
  | .hbm, ⟨11, _⟩ => ⟨S1x16x1, .f32⟩
  | .hbm, ⟨12, _⟩ => ⟨S_, .f32⟩
  | .hbm, ⟨13, _⟩ => ⟨S1x16x1, .f32⟩
  | .hbm, ⟨14, _⟩ => ⟨S1x16x1, .f32⟩
  | .hbm, ⟨15, _⟩ => ⟨S131072x16x64, .f32⟩
  | .hbm, ⟨16, _⟩ => ⟨S131072x16x64, .f32⟩
  | .hbm, ⟨17, _⟩ => ⟨S_, .f32⟩
  | .hbm, ⟨18, _⟩ => ⟨S131072x16x64, .f32⟩
  | .hbm, ⟨19, _⟩ => ⟨S131072x16x64, .f32⟩
  | .hbm, ⟨20, _⟩ => ⟨S_, .f32⟩
  | .hbm, ⟨21, _⟩ => ⟨S131072x16x64, .f32⟩
  | .hbm, ⟨22, _⟩ => ⟨S131072x16x64, .i1⟩
  | .hbm, ⟨23, _⟩ => ⟨S131072x16x64, .f32⟩
  | .hbm, ⟨24, _⟩ => ⟨S_, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x1, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S128x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  shapeCasts_S128x1024x16_S131072x16 : S128x1024x16.ShapeCasts S131072x16
  bcast_S131072x16_S131072x16x1_0_1 : S131072x16.BroadcastsInDim S131072x16x1 (![0, 1] : Fin 2 → Fin S131072x16x1.rank)
  bcast_S16x64_S1x16x64_1_2 : S16x64.BroadcastsInDim S1x16x64 (![1, 2] : Fin 2 → Fin S1x16x64.rank)
  bcast_S131072x16x1_S131072x16x64_0_1_2 : S131072x16x1.BroadcastsInDim S131072x16x64 (![0, 1, 2] : Fin 3 → Fin S131072x16x64.rank)
  bcast_S1x16x64_S131072x16x64_0_1_2 : S1x16x64.BroadcastsInDim S131072x16x64 (![0, 1, 2] : Fin 3 → Fin S131072x16x64.rank)
  bcast_S16_S1x16x1_1 : S16.BroadcastsInDim S1x16x1 (![1] : Fin 1 → Fin S1x16x1.rank)
  bcast_S_S1x16x1 : S_.BroadcastsInDim S1x16x1 (![] : Fin 0 → Fin S1x16x1.rank)
  bcast_S1x16x1_S131072x16x64_0_1_2 : S1x16x1.BroadcastsInDim S131072x16x64 (![0, 1, 2] : Fin 3 → Fin S131072x16x64.rank)
  bcast_S_S131072x16x64 : S_.BroadcastsInDim S131072x16x64 (![] : Fin 0 → Fin S131072x16x64.rank)
  reducesTo_S131072x16x64_S16x64_d0 : S131072x16x64.ReducesTo [0] S16x64
  h_S_ : 0 < S_.numel
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  reducesTo_S16x64_S16_d1 : S16x64.ReducesTo [1] S16
  bcast_S_S16 : S_.BroadcastsInDim S16 (![] : Fin 0 → Fin S16.rank)
  reducesTo_S16_S_d0 : S16.ReducesTo [0] S_

variable [Facts₀]

class Facts : Prop extends Facts₀ where

variable [Facts]
-- ==== Proof.BitsPoint.lean ====
import proofs.«155783_j79645873537299_2_alg».proof.Proof.Gen.Kernel.Frame
import proofs.«155783_j79645873537299_2_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the histogram kernel

The scratch accumulator has one slice per value of the grid's first coordinate. At a point with first coordinate
`c` the body touches slice `c` only: it loads it, at the first point of a row of the grid overwrites it with
zeros, adds to it the column sums of this point's indicator block, and at the last point of the row copies it to
the output block. The three theorems below run the body once in each of the three situations and state what
slice `c` holds afterwards as a function of what it held before. -/

/-- The slice of the scratch accumulator the body works on at a point: the rows of the first coordinate. -/
abbrev accRect (i : grid0.Coords) : Rect S2x1x1024 := Rect.unit (s := S2x1x1024) (k0_off2 i) S1x1x1024.size (k0_off2_inb i)

theorem zeros3 : (![0, 0, 0] : Fin 3 → ℕ) = fun _ => 0 := by
  funext a; fin_cases a <;> rfl
theorem zeros2 : (![0, 0] : Fin 2 → ℕ) = fun _ => 0 := by
  funext a; fin_cases a <;> rfl

/-- A point that is neither first nor last in its row: the slice ends at its old contents plus this point's column sums. -/
theorem run_middle (c : Dev nD) (i : grid0.Coords) (arg2 : Memref sig .tc .vmem S1x1024x16 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S2x1x1024 .f32) (harg6 : arg6.IsWhole)
    (hc0 : ¬ k0_cond1 i = 1#1) (hc1 : ¬ k0_cond2 i = 1#1)
    (x0 : Vec F S1x1024x16 .f32) (x1 : Vec F S1x1024 .f32) (x2 : Vec F S1x1024 .f32) (d5 : Vec F S1x1x1024 .f32) (X : Vec F S2x1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare X
        ∗ (iprop(owns (c : Thread nD τ) arg2 fullShare x0 ∗ owns (c : Thread nD τ) arg3 fullShare x1 ∗ owns (c : Thread nD τ) arg4 fullShare x2
            ∗ owns (c : Thread nD τ) arg5 fullShare d5
            ∗ (∃ f, ⌜View.ld (arg6.view.read (Elt F) f) (accRect i) = k0_pay2 x0 x1 x2 (View.ld X (accRect i))⌝ ∗ arg6.view.loc (c : Thread nD τ) ↦[arg6.view.set]{fullShare} f)) -∗ K ⟨⟩))
      ⊢ wp frame (wpE (defs₀ (F := F)) Variants.none c none) E (cc0__histo_kernel i arg2 harg2 arg3 harg3 arg4 harg4 arg5 harg5 arg6 harg6) K := by
  simp only [cc0__histo_kernel_eq_skeleton]; unfold cc0__histo_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; · ipureintro; exact harg5.read_unread _
    iexact H5
  iexists _; isplitr
  swap; · iexact H6
  ipureintro
  funext y
  refine (View.read_writes_cons_emb arg6.view _ (accRect i) _ [] y).trans ?_
  simp only [View.readAt_eq_ld, harg2.read_unread, harg3.read_unread, harg4.read_unread, harg6.read_unread,
    View.ld_unit_zero (S := S1x1024x16) zeros3, View.ld_unit_zero (S := S1x1024) zeros2]

/-- The first point of a row: the slice is zeroed first, so it ends at zero plus this point's column sums, whatever it held. -/
theorem run_first (c : Dev nD) (i : grid0.Coords) (arg2 : Memref sig .tc .vmem S1x1024x16 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S2x1x1024 .f32) (harg6 : arg6.IsWhole)
    (hc0 : k0_cond1 i = 1#1) (hc1 : ¬ k0_cond2 i = 1#1)
    (x0 : Vec F S1x1024x16 .f32) (x1 : Vec F S1x1024 .f32) (x2 : Vec F S1x1024 .f32) (d5 : Vec F S1x1x1024 .f32) (X : Vec F S2x1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare X
        ∗ (iprop(owns (c : Thread nD τ) arg2 fullShare x0 ∗ owns (c : Thread nD τ) arg3 fullShare x1 ∗ owns (c : Thread nD τ) arg4 fullShare x2
            ∗ owns (c : Thread nD τ) arg5 fullShare d5
            ∗ (∃ f, ⌜View.ld (arg6.view.read (Elt F) f) (accRect i) = k0_pay2 x0 x1 x2 k0_pay1⌝ ∗ arg6.view.loc (c : Thread nD τ) ↦[arg6.view.set]{fullShare} f)) -∗ K ⟨⟩))
      ⊢ wp frame (wpE (defs₀ (F := F)) Variants.none c none) E (cc0__histo_kernel i arg2 harg2 arg3 harg3 arg4 harg4 arg5 harg5 arg6 harg6) K := by
  simp only [cc0__histo_kernel_eq_skeleton]; unfold cc0__histo_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; · ipureintro; exact harg5.read_unread _
    iexact H5
  iexists _; isplitr
  swap; · iexact H6
  ipureintro
  have e0 : ∀ (off : Fin 3 → ℕ) (h : off = k0_off2 i) (inb : ∀ a, off a + S1x1x1024.size a ≤ S2x1x1024.size a),
      arg6.view.readCov [(⟨Rect.unit (s := S2x1x1024) off S1x1x1024.size inb, k0_pay1 (F := F)⟩ : View.Piece (Elt F) S2x1x1024 .f32)] (accRect i).toLoadRect = k0_pay1 (F := F) := by
    intro off h inb; subst h
    exact View.readCov_cons_toLoadRect (Val := Elt F) arg6.view (accRect i) (k0_pay1 (F := F)) []
  have e := e0 (k0_off1 i) rfl (k0_off1_inb i hc0)
  funext y
  refine (View.read_writes_cons_emb arg6.view _ (accRect i) _ _ y).trans ?_
  simp only [e, View.readAt_eq_ld, harg2.read_unread, harg3.read_unread, harg4.read_unread, harg6.read_unread,
    View.ld_unit_zero (S := S1x1024x16) zeros3, View.ld_unit_zero (S := S1x1024) zeros2]

/-- The last point of a row: as a middle point, and the output block receives the slice's new contents. -/
theorem run_last (c : Dev nD) (i : grid0.Coords) (arg2 : Memref sig .tc .vmem S1x1024x16 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S2x1x1024 .f32) (harg6 : arg6.IsWhole)
    (hc0 : ¬ k0_cond1 i = 1#1) (hc1 : k0_cond2 i = 1#1)
    (x0 : Vec F S1x1024x16 .f32) (x1 : Vec F S1x1024 .f32) (x2 : Vec F S1x1024 .f32) (d5 : Vec F S1x1x1024 .f32) (X : Vec F S2x1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare X
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 x2 (View.ld X (accRect i))))
            ∗ (∃ f, ⌜View.ld (arg6.view.read (Elt F) f) (accRect i) = k0_pay2 x0 x1 x2 (View.ld X (accRect i))⌝ ∗ arg6.view.loc (c : Thread nD τ) ↦[arg6.view.set]{fullShare} f)) -∗ K ⟨⟩))
      ⊢ wp frame (wpE (defs₀ (F := F)) Variants.none c none) E (cc0__histo_kernel i arg2 harg2 arg3 harg3 arg4 harg4 arg5 harg5 arg6 harg6) K := by
  simp only [cc0__histo_kernel_eq_skeleton]; unfold cc0__histo_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have hW : k0_pay2 (View.readAt (Elt F) arg2.view (Rect.unit (s := S1x1024x16) ![0, 0, 0] S1x1024x16.size inb_S1x1024x16_S1x1024x16_0_0_0).toLoadRect (harg2.unread x0))
        (View.readAt (Elt F) arg3.view (Rect.unit (s := S1x1024) ![0, 0] S1x1024.size inb_S1x1024_S1x1024_0_0).toLoadRect (harg3.unread x1))
        (View.readAt (Elt F) arg4.view (Rect.unit (s := S1x1024) ![0, 0] S1x1024.size inb_S1x1024_S1x1024_0_0).toLoadRect (harg4.unread x2))
        (View.readAt (Elt F) arg6.view (accRect i).toLoadRect (harg6.unread X))
      = k0_pay2 x0 x1 x2 (View.ld X (accRect i)) := by
    simp only [View.readAt_eq_ld, harg2.read_unread, harg3.read_unread, harg4.read_unread, harg6.read_unread,
      View.ld_unit_zero (S := S1x1024x16) zeros3, View.ld_unit_zero (S := S1x1024) zeros2]
  isplitl [H5]
  · iexists _; isplitr
    swap; · iexact H5
    ipureintro
    funext y
    refine (View.read_writes_cons_unit_of_mem arg5.view _ inb_S1x1x1024_S1x1x1024_0_0_0 _ [] y y rfl (fun a => ?_)).trans ?_
    · fin_cases a <;> simp
    · have e := View.readCov_cons_toLoadRect (Val := Elt F) arg6.view (accRect i) (k0_pay2 (View.readAt (Elt F) arg2.view (Rect.unit (s := S1x1024x16) ![0, 0, 0] S1x1024x16.size inb_S1x1024x16_S1x1024x16_0_0_0).toLoadRect (harg2.unread x0))
        (View.readAt (Elt F) arg3.view (Rect.unit (s := S1x1024) ![0, 0] S1x1024.size inb_S1x1024_S1x1024_0_0).toLoadRect (harg3.unread x1))
        (View.readAt (Elt F) arg4.view (Rect.unit (s := S1x1024) ![0, 0] S1x1024.size inb_S1x1024_S1x1024_0_0).toLoadRect (harg4.unread x2))
        (View.readAt (Elt F) arg6.view (accRect i).toLoadRect (harg6.unread X))) []
      exact congrFun (congrArg k0_pay3 (e.trans hW)) y
  iexists _; isplitr
  swap; · iexact H6
  ipureintro
  funext y
  refine (View.read_writes_cons_emb arg6.view _ (accRect i) _ [] y).trans ?_
  exact congrFun hW y

end Cert.Kernel.Body

end
-- ==== Proof.BitsRun.lean ====
import proofs.«155783_j79645873537299_2_alg».proof.Proof.BitsPoint

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, point by point

The grid has 2 rows of 64 points, walked row by row: point `t` is point `t % 64` of row `t / 64`. The first
point of a row zeroes the row's slice of the scratch accumulator, every point adds its column sums to it, the last
point of the row copies it to the output block, which is written back there and nowhere else. -/

theorem first_iff : ∀ t : Fin cfg0.N, k0_cond1 (grid0.coords t) = 1#1 ↔ t.val % 64 = 0 :=
  (by decide +kernel : ∀ t : Fin grid0.N, k0_cond1 (grid0.coords t) = 1#1 ↔ t.val % 64 = 0)
theorem last_iff : ∀ t : Fin cfg0.N, k0_cond2 (grid0.coords t) = 1#1 ↔ t.val % 64 = 63 :=
  (by decide +kernel : ∀ t : Fin grid0.N, k0_cond2 (grid0.coords t) = 1#1 ↔ t.val % 64 = 63)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ k0_cond2 (grid0.coords t) = 1#1 → cfg0.idle 3 (grid0.coords t) = true :=
  (by decide +kernel : ∀ t : Fin grid0.N, ¬ k0_cond2 (grid0.coords t) = 1#1 → cfg0.idle 3 (grid0.coords t) = true)
theorem live3 : ∀ t : Fin cfg0.N, k0_cond2 (grid0.coords t) = 1#1 → cfg0.idle 3 (grid0.coords t) = false :=
  (by decide +kernel : ∀ t : Fin grid0.N, k0_cond2 (grid0.coords t) = 1#1 → cfg0.idle 3 (grid0.coords t) = false)
theorem noFlush3 : ∀ t : Fin cfg0.N, ¬ k0_cond2 (grid0.coords t) = 1#1 → (cfg0.win 3).flush t = false :=
  (by decide +kernel : ∀ t : Fin grid0.N, ¬ k0_cond2 (grid0.coords t) = 1#1 → win0_3.flush t = false)

/-- The slice of the scratch accumulator that belongs to row `k` of the grid (the row number read modulo 2). -/
theorem rowRect_inb (k : ℕ) : ∀ a, (![k % 2, 0, 0] : Fin 3 → ℕ) a + S1x1x1024.size a ≤ S2x1x1024.size a := by
  intro a; fin_cases a
  · show k % 2 + 1 ≤ 2; omega
  · show 0 + 1 ≤ 1; omega
  · show 0 + 1024 ≤ 1024; omega
abbrev rowRect (k : ℕ) : Rect S2x1x1024 := Rect.unit (s := S2x1x1024) ![k % 2, 0, 0] S1x1x1024.size (rowRect_inb k)

/-- The offsets the body computes at point `t` name the slice of the point's row. -/
theorem off_eq : ∀ t : Fin cfg0.N, k0_off2 (grid0.coords t) = ![t.val / 64 % 2, 0, 0] :=
  (by decide +kernel : ∀ t : Fin grid0.N, k0_off2 (grid0.coords t) = ![t.val / 64 % 2, 0, 0])
theorem accRect_eq (t : Fin cfg0.N) : accRect (grid0.coords t) = rowRect (t.val / 64) :=
  Rect.unit_congr (off_eq t) _ _

/-- A load of one slice reads the same block however the slice's offsets are spelt. -/
theorem ld_unit_congr {off off' : Fin 3 → ℕ} (h : off = off') (p : ∀ a, off a + S1x1x1024.size a ≤ S2x1x1024.size a)
    (p' : ∀ a, off' a + S1x1x1024.size a ≤ S2x1x1024.size a) (X : Vec F S2x1x1024 .f32) :
    (View.ld X (Rect.unit (s := S2x1x1024) off S1x1x1024.size p) : Vec F S1x1x1024 .f32)
      = View.ld X (Rect.unit (s := S2x1x1024) off' S1x1x1024.size p') := by
  subst h; rfl
/-- Equal row numbers name one slice. -/
theorem ld_rowRect_congr {k k' : ℕ} (h : k = k') (X : Vec F S2x1x1024 .f32) :
    (View.ld X (rowRect k) : Vec F S1x1x1024 .f32) = View.ld X (rowRect k') := by
  subst h; rfl
/-- The slice of a point's row is the slice the body names at that point. -/
theorem ld_row (t : Fin cfg0.N) (X : Vec F S2x1x1024 .f32) :
    (View.ld X (rowRect (t.val / 64)) : Vec F S1x1x1024 .f32) = View.ld X (accRect (grid0.coords t)) :=
  (ld_unit_congr (off_eq t) _ _ X).symm

/-- The grid point numbered `n` (a number past the grid wraps round; only numbers below 128 are ever used). -/
def pt (n : ℕ) : Fin cfg0.N := ⟨n % 128, lt_of_lt_of_eq (Nat.mod_lt n (by decide)) (show cfg0.N = 128 from N_0).symm⟩
theorem pt_val (t : Fin cfg0.N) : pt t.val = t :=
  Fin.ext (Nat.mod_eq_of_lt (lt_of_lt_of_eq t.isLt (show cfg0.N = 128 from N_0)))

/-- THE RUNNING SUM. What the row's slice of the scratch accumulator holds after point `n`: this point's column
    sums added to zero at the first point of a row, and to what the point before left otherwise. -/
def accAt (c : Dev nD) : ℕ → Vec F S1x1x1024 .f32
  | 0 => k0_pay2 (iblk m c 0 (pt 0)) (iblk m c 1 (pt 0)) (iblk m c 2 (pt 0)) k0_pay1
  | n + 1 => k0_pay2 (iblk m c 0 (pt (n + 1))) (iblk m c 1 (pt (n + 1))) (iblk m c 2 (pt (n + 1)))
      (if (n + 1) % 64 = 0 then k0_pay1 else accAt c n)

theorem accAt_first (c : Dev nD) (n : ℕ) (h : n % 64 = 0) :
    accAt m c n = k0_pay2 (iblk m c 0 (pt n)) (iblk m c 1 (pt n)) (iblk m c 2 (pt n)) k0_pay1 := by
  cases n with
  | zero => rfl
  | succ n => show k0_pay2 _ _ _ (if (n + 1) % 64 = 0 then _ else _) = _; rw [if_pos h]

theorem accAt_next (c : Dev nD) (n : ℕ) (h : n % 64 ≠ 0) :
    accAt m c n = k0_pay2 (iblk m c 0 (pt n)) (iblk m c 1 (pt n)) (iblk m c 2 (pt n)) (accAt m c (n - 1)) := by
  cases n with
  | zero => exact absurd (Nat.zero_mod 64) h
  | succ n => show k0_pay2 _ _ _ (if (n + 1) % 64 = 0 then _ else _) = _; rw [if_neg h]; rfl

/-! ## The proof data -/

abbrev ms0 (t : Fin cfg0.N) : Memref sig .tc .vmem S1x1024x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
/-- The scratch accumulator: a whole buffer of the kernel's own. -/
abbrev scM : Memref sig .tc .vmem S2x1x1024 .f32 := Memref.whole cc0_scratch0

/-- What the region is entered with beside the windows: the scratch accumulator at some contents and the random-number register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- THE INVARIANT before point `n`: the scratch accumulator at contents whose slice for the row of point `n - 1`
    is that point's running sum — unless `n` starts a row, when nothing is said (the point zeroes its slice). -/
def PhiS (c : Dev nD) (n : ℕ) : sProp 𝕄 :=
  iprop(iprop((∃ X : Vec F S2x1x1024 .f32, ⌜n % 64 ≠ 0 → View.ld X (rowRect ((n - 1) / 64)) = accAt m c (n - 1)⌝
      ∗ owns (c : Thread nD τ) scM fullShare X)) ∗ (∃ r, prngReg c r))

/-- The proof data: the arrays as the region finds them; each input's buffer at its block; the output's at the
    running sum of its point, copied out (read only at the last point of a row). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (accAt m c t.val)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (accAt m c t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0_0]
theorem leaves1 (c : Dev nD) (t : Fin cfg0.N) :
    (dats m 0 c).leavesExact 1 t = owns (c : Thread nD τ) (ms1 t) fullShare (iblk m c 1 t) := by
  unfold Dat.leavesExact; rw [live1 t, after0_1]
theorem leaves2 (c : Dev nD) (t : Fin cfg0.N) :
    (dats m 0 c).leavesExact 2 t = owns (c : Thread nD τ) (ms2 t) fullShare (iblk m c 2 t) := by
  unfold Dat.leavesExact; rw [live2 t, after0_2]
theorem leaves3_live (c : Dev nD) (t : Fin cfg0.N) (h : k0_cond2 (grid0.coords t) = 1#1) :
    (dats m 0 c).leavesExact 3 t = owns (c : Thread nD τ) (ms3 t) fullShare (k0_pay3 (accAt m c t.val)) := by
  unfold Dat.leavesExact; rw [live3 t h, after0_3]

set_option maxHeartbeats 4800000 in
/-- The body at any point, in the three situations a point can be in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2]
  have hN : t.val < 128 := lt_of_lt_of_eq t.isLt (show cfg0.N = 128 from N_0)
  unfold PhiS
  by_cases h0 : t.val % 64 = 0
  · have hc0 : k0_cond1 (grid0.coords t) = 1#1 := (first_iff t).mpr h0
    have hc1 : ¬ k0_cond2 (grid0.coords t) = 1#1 := fun h => by have := (last_iff t).mp h; omega
    rw [Dat.leavesExact_idle (dats m 0 c) 3 t (idle3 t hc1) (noFlush3 t hc1)]
    iintro ⟨⟨⟨%X, %hX, HS⟩, Hg⟩, Ho, ⟨%d0, H0⟩, ⟨%d1, H1⟩, ⟨%d2, H2⟩, ⟨%d3, H3⟩⟩
    iapply (run_first (F := F) c (grid0.coords t) (ms0 t) (hs0 t) (ms1 t) (hs1 t) (ms2 t) (hs2 t) (ms3 t) (hs3 t) scM (Memref.isWhole_whole _) hc0 hc1
      (iblk m c 0 t) (iblk m c 1 t) (iblk m c 2 t) _ X Set.univ _)
    isplitl [H0]; · iexact H0
    isplitl [H1]; · iexact H1
    isplitl [H2]; · iexact H2
    isplitl [H3]; · iexact H3
    isplitl [HS]; · iexact HS
    iintro ⟨H0, H1, H2, H3, ⟨%f, %hf, HS⟩⟩
    isplitl [HS Hg]
    · isplitl [HS]
      · iexists (scM.view.read (Elt F) f); isplitr
        · ipureintro; intro _
          rw [Nat.add_sub_cancel, accAt_first m c t.val h0, pt_val]
          exact (ld_row t _).trans hf
        · unfold owns; iexists f; isplitr; · ipureintro; rfl
          iexact HS
      iexact Hg
    isplitl [Ho]; · iexact Ho
    isplitl [H0]; · iexact H0
    isplitl [H1]; · iexact H1
    isplitl [H2]; · iexact H2
    iexists _; iexact H3
  · have hc0 : ¬ k0_cond1 (grid0.coords t) = 1#1 := fun h => h0 ((first_iff t).mp h)
    have hrow : (t.val - 1) / 64 = t.val / 64 := by omega
    by_cases h1 : t.val % 64 = 63
    · have hc1 : k0_cond2 (grid0.coords t) = 1#1 := (last_iff t).mpr h1
      rw [leaves3_live m c t hc1]
      iintro ⟨⟨⟨%X, %hX, HS⟩, Hg⟩, Ho, ⟨%d0, H0⟩, ⟨%d1, H1⟩, ⟨%d2, H2⟩, ⟨%d3, H3⟩⟩
      have hprev : (View.ld X (accRect (grid0.coords t)) : Vec F S1x1x1024 .f32) = accAt m c (t.val - 1) :=
        ((ld_row t X).symm.trans (ld_rowRect_congr hrow.symm X)).trans (hX h0)
      have hnew : k0_pay2 (iblk m c 0 t) (iblk m c 1 t) (iblk m c 2 t) (View.ld X (accRect (grid0.coords t))) = accAt m c t.val := by
        rw [hprev, accAt_next m c t.val h0, pt_val]
      rw [← hnew]
      iapply (run_last (F := F) c (grid0.coords t) (ms0 t) (hs0 t) (ms1 t) (hs1 t) (ms2 t) (hs2 t) (ms3 t) (hs3 t) scM (Memref.isWhole_whole _) hc0 hc1
        (iblk m c 0 t) (iblk m c 1 t) (iblk m c 2 t) _ X Set.univ _)
      isplitl [H0]; · iexact H0
      isplitl [H1]; · iexact H1
      isplitl [H2]; · iexact H2
      isplitl [H3]; · iexact H3
      isplitl [HS]; · iexact HS
      iintro ⟨H0, H1, H2, H3, ⟨%f, %hf, HS⟩⟩
      isplitl [HS Hg]
      · isplitl [HS]
        · iexists (scM.view.read (Elt F) f); isplitr
          · ipureintro; intro _
            rw [Nat.add_sub_cancel]; exact ((ld_row t _).trans hf).trans hnew
          · unfold owns; iexists f; isplitr; · ipureintro; rfl
            iexact HS
        iexact Hg
      isplitl [Ho]; · iexact Ho
      isplitl [H0]; · iexact H0
      isplitl [H1]; · iexact H1
      isplitl [H2]; · iexact H2
      iexact H3
    · have hc1 : ¬ k0_cond2 (grid0.coords t) = 1#1 := fun h => h1 ((last_iff t).mp h)
      rw [Dat.leavesExact_idle (dats m 0 c) 3 t (idle3 t hc1) (noFlush3 t hc1)]
      iintro ⟨⟨⟨%X, %hX, HS⟩, Hg⟩, Ho, ⟨%d0, H0⟩, ⟨%d1, H1⟩, ⟨%d2, H2⟩, ⟨%d3, H3⟩⟩
      have hprev : (View.ld X (accRect (grid0.coords t)) : Vec F S1x1x1024 .f32) = accAt m c (t.val - 1) :=
        ((ld_row t X).symm.trans (ld_rowRect_congr hrow.symm X)).trans (hX h0)
      have hnew : k0_pay2 (iblk m c 0 t) (iblk m c 1 t) (iblk m c 2 t) (View.ld X (accRect (grid0.coords t))) = accAt m c t.val := by
        rw [hprev, accAt_next m c t.val h0, pt_val]
      iapply (run_middle (F := F) c (grid0.coords t) (ms0 t) (hs0 t) (ms1 t) (hs1 t) (ms2 t) (hs2 t) (ms3 t) (hs3 t) scM (Memref.isWhole_whole _) hc0 hc1
        (iblk m c 0 t) (iblk m c 1 t) (iblk m c 2 t) _ X Set.univ _)
      isplitl [H0]; · iexact H0
      isplitl [H1]; · iexact H1
      isplitl [H2]; · iexact H2
      isplitl [H3]; · iexact H3
      isplitl [HS]; · iexact HS
      iintro ⟨H0, H1, H2, H3, ⟨%f, %hf, HS⟩⟩
      isplitl [HS Hg]
      · isplitl [HS]
        · iexists (scM.view.read (Elt F) f); isplitr
          · ipureintro; intro _
            rw [Nat.add_sub_cancel]; exact ((ld_row t _).trans hf).trans hnew
          · unfold owns; iexists f; isplitr; · ipureintro; rfl
            iexact HS
        iexact Hg
      isplitl [Ho]; · iexact Ho
      isplitl [H0]; · iexact H0
      isplitl [H1]; · iexact H1
      isplitl [H2]; · iexact H2
      iexists _; iexact H3

/-- At every point the body meets what the walk over the grid asks of it. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is said of the scratch there. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS⟩, Hg⟩
  isplitl [HS]
  · iexists d; isplitr
    · ipureintro; intro h; exact absurd (Nat.zero_mod 64) h
    iexact HS
  iexact Hg

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%X, %hX, HS⟩, Hg⟩
  isplitl [HS]
  · iexists X; iexact HS
  iexact Hg

/-! ## The run and the frame -/

set_option backward.isDefEq.respectTransparency.types false in
/-- Every weakly fair execution of @main terminates, with the output array at what the proof data's write-backs
    leave in it and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IdealPoint.lean ====
import proofs.«155783_j79645873537299_2_alg».proof.Proof.Gen.KernelIdeal.Frame
import proofs.«155783_j79645873537299_2_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the histogram kernel

The scratch accumulator has one slice per value of the grid's first coordinate. At a point with first coordinate
`c` the body touches slice `c` only: it loads it, at the first point of a row of the grid overwrites it with
zeros, adds to it the column sums of this point's indicator block, and at the last point of the row copies it to
the output block. The three theorems below run the body once in each of the three situations and state what
slice `c` holds afterwards as a function of what it held before. -/

/-- The slice of the scratch accumulator the body works on at a point: the rows of the first coordinate. -/
abbrev accRect (i : grid0.Coords) : Rect S2x1x1024 := Rect.unit (s := S2x1x1024) (k0_off2 i) S1x1x1024.size (k0_off2_inb i)

theorem zeros3 : (![0, 0, 0] : Fin 3 → ℕ) = fun _ => 0 := by
  funext a; fin_cases a <;> rfl
theorem zeros2 : (![0, 0] : Fin 2 → ℕ) = fun _ => 0 := by
  funext a; fin_cases a <;> rfl

/-- A point that is neither first nor last in its row: the slice ends at its old contents plus this point's column sums. -/
theorem run_middle (c : Dev nD) (i : grid0.Coords) (arg2 : Memref sig .tc .vmem S1x1024x16 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S2x1x1024 .f32) (harg6 : arg6.IsWhole)
    (hc0 : ¬ k0_cond1 i = 1#1) (hc1 : ¬ k0_cond2 i = 1#1)
    (x0 : Vec F S1x1024x16 .f32) (x1 : Vec F S1x1024 .f32) (x2 : Vec F S1x1024 .f32) (d5 : Vec F S1x1x1024 .f32) (X : Vec F S2x1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare X
        ∗ (iprop(owns (c : Thread nD τ) arg2 fullShare x0 ∗ owns (c : Thread nD τ) arg3 fullShare x1 ∗ owns (c : Thread nD τ) arg4 fullShare x2
            ∗ owns (c : Thread nD τ) arg5 fullShare d5
            ∗ (∃ f, ⌜View.ld (arg6.view.read (Elt F) f) (accRect i) = k0_pay2 x0 x1 x2 (View.ld X (accRect i))⌝ ∗ arg6.view.loc (c : Thread nD τ) ↦[arg6.view.set]{fullShare} f)) -∗ K ⟨⟩))
      ⊢ wp frame (wpE (defs₀ (F := F)) Variants.none c none) E (cc0__histo_kernel i arg2 harg2 arg3 harg3 arg4 harg4 arg5 harg5 arg6 harg6) K := by
  simp only [cc0__histo_kernel_eq_skeleton]; unfold cc0__histo_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; · ipureintro; exact harg5.read_unread _
    iexact H5
  iexists _; isplitr
  swap; · iexact H6
  ipureintro
  funext y
  refine (View.read_writes_cons_emb arg6.view _ (accRect i) _ [] y).trans ?_
  simp only [View.readAt_eq_ld, harg2.read_unread, harg3.read_unread, harg4.read_unread, harg6.read_unread,
    View.ld_unit_zero (S := S1x1024x16) zeros3, View.ld_unit_zero (S := S1x1024) zeros2]

/-- The first point of a row: the slice is zeroed first, so it ends at zero plus this point's column sums, whatever it held. -/
theorem run_first (c : Dev nD) (i : grid0.Coords) (arg2 : Memref sig .tc .vmem S1x1024x16 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S2x1x1024 .f32) (harg6 : arg6.IsWhole)
    (hc0 : k0_cond1 i = 1#1) (hc1 : ¬ k0_cond2 i = 1#1)
    (x0 : Vec F S1x1024x16 .f32) (x1 : Vec F S1x1024 .f32) (x2 : Vec F S1x1024 .f32) (d5 : Vec F S1x1x1024 .f32) (X : Vec F S2x1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare X
        ∗ (iprop(owns (c : Thread nD τ) arg2 fullShare x0 ∗ owns (c : Thread nD τ) arg3 fullShare x1 ∗ owns (c : Thread nD τ) arg4 fullShare x2
            ∗ owns (c : Thread nD τ) arg5 fullShare d5
            ∗ (∃ f, ⌜View.ld (arg6.view.read (Elt F) f) (accRect i) = k0_pay2 x0 x1 x2 k0_pay1⌝ ∗ arg6.view.loc (c : Thread nD τ) ↦[arg6.view.set]{fullShare} f)) -∗ K ⟨⟩))
      ⊢ wp frame (wpE (defs₀ (F := F)) Variants.none c none) E (cc0__histo_kernel i arg2 harg2 arg3 harg3 arg4 harg4 arg5 harg5 arg6 harg6) K := by
  simp only [cc0__histo_kernel_eq_skeleton]; unfold cc0__histo_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr; · ipureintro; exact harg5.read_unread _
    iexact H5
  iexists _; isplitr
  swap; · iexact H6
  ipureintro
  have e0 : ∀ (off : Fin 3 → ℕ) (h : off = k0_off2 i) (inb : ∀ a, off a + S1x1x1024.size a ≤ S2x1x1024.size a),
      arg6.view.readCov [(⟨Rect.unit (s := S2x1x1024) off S1x1x1024.size inb, k0_pay1 (F := F)⟩ : View.Piece (Elt F) S2x1x1024 .f32)] (accRect i).toLoadRect = k0_pay1 (F := F) := by
    intro off h inb; subst h
    exact View.readCov_cons_toLoadRect (Val := Elt F) arg6.view (accRect i) (k0_pay1 (F := F)) []
  have e := e0 (k0_off1 i) rfl (k0_off1_inb i hc0)
  funext y
  refine (View.read_writes_cons_emb arg6.view _ (accRect i) _ _ y).trans ?_
  simp only [e, View.readAt_eq_ld, harg2.read_unread, harg3.read_unread, harg4.read_unread, harg6.read_unread,
    View.ld_unit_zero (S := S1x1024x16) zeros3, View.ld_unit_zero (S := S1x1024) zeros2]

/-- The last point of a row: as a middle point, and the output block receives the slice's new contents. -/
theorem run_last (c : Dev nD) (i : grid0.Coords) (arg2 : Memref sig .tc .vmem S1x1024x16 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S2x1x1024 .f32) (harg6 : arg6.IsWhole)
    (hc0 : ¬ k0_cond1 i = 1#1) (hc1 : k0_cond2 i = 1#1)
    (x0 : Vec F S1x1024x16 .f32) (x1 : Vec F S1x1024 .f32) (x2 : Vec F S1x1024 .f32) (d5 : Vec F S1x1x1024 .f32) (X : Vec F S2x1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare X
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 x2 (View.ld X (accRect i))))
            ∗ (∃ f, ⌜View.ld (arg6.view.read (Elt F) f) (accRect i) = k0_pay2 x0 x1 x2 (View.ld X (accRect i))⌝ ∗ arg6.view.loc (c : Thread nD τ) ↦[arg6.view.set]{fullShare} f)) -∗ K ⟨⟩))
      ⊢ wp frame (wpE (defs₀ (F := F)) Variants.none c none) E (cc0__histo_kernel i arg2 harg2 arg3 harg3 arg4 harg4 arg5 harg5 arg6 harg6) K := by
  simp only [cc0__histo_kernel_eq_skeleton]; unfold cc0__histo_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc0 | exact hc1)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have hW : k0_pay2 (View.readAt (Elt F) arg2.view (Rect.unit (s := S1x1024x16) ![0, 0, 0] S1x1024x16.size inb_S1x1024x16_S1x1024x16_0_0_0).toLoadRect (harg2.unread x0))
        (View.readAt (Elt F) arg3.view (Rect.unit (s := S1x1024) ![0, 0] S1x1024.size inb_S1x1024_S1x1024_0_0).toLoadRect (harg3.unread x1))
        (View.readAt (Elt F) arg4.view (Rect.unit (s := S1x1024) ![0, 0] S1x1024.size inb_S1x1024_S1x1024_0_0).toLoadRect (harg4.unread x2))
        (View.readAt (Elt F) arg6.view (accRect i).toLoadRect (harg6.unread X))
      = k0_pay2 x0 x1 x2 (View.ld X (accRect i)) := by
    simp only [View.readAt_eq_ld, harg2.read_unread, harg3.read_unread, harg4.read_unread, harg6.read_unread,
      View.ld_unit_zero (S := S1x1024x16) zeros3, View.ld_unit_zero (S := S1x1024) zeros2]
  isplitl [H5]
  · iexists _; isplitr
    swap; · iexact H5
    ipureintro
    funext y
    refine (View.read_writes_cons_unit_of_mem arg5.view _ inb_S1x1x1024_S1x1x1024_0_0_0 _ [] y y rfl (fun a => ?_)).trans ?_
    · fin_cases a <;> simp
    · have e := View.readCov_cons_toLoadRect (Val := Elt F) arg6.view (accRect i) (k0_pay2 (View.readAt (Elt F) arg2.view (Rect.unit (s := S1x1024x16) ![0, 0, 0] S1x1024x16.size inb_S1x1024x16_S1x1024x16_0_0_0).toLoadRect (harg2.unread x0))
        (View.readAt (Elt F) arg3.view (Rect.unit (s := S1x1024) ![0, 0] S1x1024.size inb_S1x1024_S1x1024_0_0).toLoadRect (harg3.unread x1))
        (View.readAt (Elt F) arg4.view (Rect.unit (s := S1x1024) ![0, 0] S1x1024.size inb_S1x1024_S1x1024_0_0).toLoadRect (harg4.unread x2))
        (View.readAt (Elt F) arg6.view (accRect i).toLoadRect (harg6.unread X))) []
      exact congrFun (congrArg k0_pay3 (e.trans hW)) y
  iexists _; isplitr
  swap; · iexact H6
  ipureintro
  funext y
  refine (View.read_writes_cons_emb arg6.view _ (accRect i) _ [] y).trans ?_
  exact congrFun hW y

end Cert.KernelIdeal.Body

end
-- ==== Proof.IdealRun.lean ====
import proofs.«155783_j79645873537299_2_alg».proof.Proof.IdealPoint

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid, point by point

The grid has 2 rows of 64 points, walked row by row: point `t` is point `t % 64` of row `t / 64`. The first
point of a row zeroes the row's slice of the scratch accumulator, every point adds its column sums to it, the last
point of the row copies it to the output block, which is written back there and nowhere else. -/

theorem first_iff : ∀ t : Fin cfg0.N, k0_cond1 (grid0.coords t) = 1#1 ↔ t.val % 64 = 0 :=
  (by decide +kernel : ∀ t : Fin grid0.N, k0_cond1 (grid0.coords t) = 1#1 ↔ t.val % 64 = 0)
theorem last_iff : ∀ t : Fin cfg0.N, k0_cond2 (grid0.coords t) = 1#1 ↔ t.val % 64 = 63 :=
  (by decide +kernel : ∀ t : Fin grid0.N, k0_cond2 (grid0.coords t) = 1#1 ↔ t.val % 64 = 63)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3 : ∀ t : Fin cfg0.N, ¬ k0_cond2 (grid0.coords t) = 1#1 → cfg0.idle 3 (grid0.coords t) = true :=
  (by decide +kernel : ∀ t : Fin grid0.N, ¬ k0_cond2 (grid0.coords t) = 1#1 → cfg0.idle 3 (grid0.coords t) = true)
theorem live3 : ∀ t : Fin cfg0.N, k0_cond2 (grid0.coords t) = 1#1 → cfg0.idle 3 (grid0.coords t) = false :=
  (by decide +kernel : ∀ t : Fin grid0.N, k0_cond2 (grid0.coords t) = 1#1 → cfg0.idle 3 (grid0.coords t) = false)
theorem noFlush3 : ∀ t : Fin cfg0.N, ¬ k0_cond2 (grid0.coords t) = 1#1 → (cfg0.win 3).flush t = false :=
  (by decide +kernel : ∀ t : Fin grid0.N, ¬ k0_cond2 (grid0.coords t) = 1#1 → win0_3.flush t = false)

/-- The slice of the scratch accumulator that belongs to row `k` of the grid (the row number read modulo 2). -/
theorem rowRect_inb (k : ℕ) : ∀ a, (![k % 2, 0, 0] : Fin 3 → ℕ) a + S1x1x1024.size a ≤ S2x1x1024.size a := by
  intro a; fin_cases a
  · show k % 2 + 1 ≤ 2; omega
  · show 0 + 1 ≤ 1; omega
  · show 0 + 1024 ≤ 1024; omega
abbrev rowRect (k : ℕ) : Rect S2x1x1024 := Rect.unit (s := S2x1x1024) ![k % 2, 0, 0] S1x1x1024.size (rowRect_inb k)

/-- The offsets the body computes at point `t` name the slice of the point's row. -/
theorem off_eq : ∀ t : Fin cfg0.N, k0_off2 (grid0.coords t) = ![t.val / 64 % 2, 0, 0] :=
  (by decide +kernel : ∀ t : Fin grid0.N, k0_off2 (grid0.coords t) = ![t.val / 64 % 2, 0, 0])
theorem accRect_eq (t : Fin cfg0.N) : accRect (grid0.coords t) = rowRect (t.val / 64) :=
  Rect.unit_congr (off_eq t) _ _

/-- A load of one slice reads the same block however the slice's offsets are spelt. -/
theorem ld_unit_congr {off off' : Fin 3 → ℕ} (h : off = off') (p : ∀ a, off a + S1x1x1024.size a ≤ S2x1x1024.size a)
    (p' : ∀ a, off' a + S1x1x1024.size a ≤ S2x1x1024.size a) (X : Vec F S2x1x1024 .f32) :
    (View.ld X (Rect.unit (s := S2x1x1024) off S1x1x1024.size p) : Vec F S1x1x1024 .f32)
      = View.ld X (Rect.unit (s := S2x1x1024) off' S1x1x1024.size p') := by
  subst h; rfl
/-- Equal row numbers name one slice. -/
theorem ld_rowRect_congr {k k' : ℕ} (h : k = k') (X : Vec F S2x1x1024 .f32) :
    (View.ld X (rowRect k) : Vec F S1x1x1024 .f32) = View.ld X (rowRect k') := by
  subst h; rfl
/-- The slice of a point's row is the slice the body names at that point. -/
theorem ld_row (t : Fin cfg0.N) (X : Vec F S2x1x1024 .f32) :
    (View.ld X (rowRect (t.val / 64)) : Vec F S1x1x1024 .f32) = View.ld X (accRect (grid0.coords t)) :=
  (ld_unit_congr (off_eq t) _ _ X).symm

/-- The grid point numbered `n` (a number past the grid wraps round; only numbers below 128 are ever used). -/
def pt (n : ℕ) : Fin cfg0.N := ⟨n % 128, lt_of_lt_of_eq (Nat.mod_lt n (by decide)) (show cfg0.N = 128 from N_0).symm⟩
theorem pt_val (t : Fin cfg0.N) : pt t.val = t :=
  Fin.ext (Nat.mod_eq_of_lt (lt_of_lt_of_eq t.isLt (show cfg0.N = 128 from N_0)))

/-- THE RUNNING SUM. What the row's slice of the scratch accumulator holds after point `n`: this point's column
    sums added to zero at the first point of a row, and to what the point before left otherwise. -/
def accAt (c : Dev nD) : ℕ → Vec F S1x1x1024 .f32
  | 0 => k0_pay2 (iblk m c 0 (pt 0)) (iblk m c 1 (pt 0)) (iblk m c 2 (pt 0)) k0_pay1
  | n + 1 => k0_pay2 (iblk m c 0 (pt (n + 1))) (iblk m c 1 (pt (n + 1))) (iblk m c 2 (pt (n + 1)))
      (if (n + 1) % 64 = 0 then k0_pay1 else accAt c n)

theorem accAt_first (c : Dev nD) (n : ℕ) (h : n % 64 = 0) :
    accAt m c n = k0_pay2 (iblk m c 0 (pt n)) (iblk m c 1 (pt n)) (iblk m c 2 (pt n)) k0_pay1 := by
  cases n with
  | zero => rfl
  | succ n => show k0_pay2 _ _ _ (if (n + 1) % 64 = 0 then _ else _) = _; rw [if_pos h]

theorem accAt_next (c : Dev nD) (n : ℕ) (h : n % 64 ≠ 0) :
    accAt m c n = k0_pay2 (iblk m c 0 (pt n)) (iblk m c 1 (pt n)) (iblk m c 2 (pt n)) (accAt m c (n - 1)) := by
  cases n with
  | zero => exact absurd (Nat.zero_mod 64) h
  | succ n => show k0_pay2 _ _ _ (if (n + 1) % 64 = 0 then _ else _) = _; rw [if_neg h]; rfl

/-! ## The proof data -/

abbrev ms0 (t : Fin cfg0.N) : Memref sig .tc .vmem S1x1024x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024 .f32 := win0_3.stage (cfg0.slots t 3)
abbrev hs3 (t : Fin cfg0.N) : (ms3 t).IsWhole := hstage0_3 ((cfg0.slots t 3).cast nbuf0_3)
/-- The scratch accumulator: a whole buffer of the kernel's own. -/
abbrev scM : Memref sig .tc .vmem S2x1x1024 .f32 := Memref.whole cc0_scratch0

/-- What the region is entered with beside the windows: the scratch accumulator at some contents and the random-number register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- THE INVARIANT before point `n`: the scratch accumulator at contents whose slice for the row of point `n - 1`
    is that point's running sum — unless `n` starts a row, when nothing is said (the point zeroes its slice). -/
def PhiS (c : Dev nD) (n : ℕ) : sProp 𝕄 :=
  iprop(iprop((∃ X : Vec F S2x1x1024 .f32, ⌜n % 64 ≠ 0 → View.ld X (rowRect ((n - 1) / 64)) = accAt m c (n - 1)⌝
      ∗ owns (c : Thread nD τ) scM fullShare X)) ∗ (∃ r, prngReg c r))

/-- The proof data: the arrays as the region finds them; each input's buffer at its block; the output's at the
    running sum of its point, copied out (read only at the last point of a row). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (accAt m c t.val)
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (accAt m c t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [live0 t, after0_0]
theorem leaves1 (c : Dev nD) (t : Fin cfg0.N) :
    (dats m 0 c).leavesExact 1 t = owns (c : Thread nD τ) (ms1 t) fullShare (iblk m c 1 t) := by
  unfold Dat.leavesExact; rw [live1 t, after0_1]
theorem leaves2 (c : Dev nD) (t : Fin cfg0.N) :
    (dats m 0 c).leavesExact 2 t = owns (c : Thread nD τ) (ms2 t) fullShare (iblk m c 2 t) := by
  unfold Dat.leavesExact; rw [live2 t, after0_2]
theorem leaves3_live (c : Dev nD) (t : Fin cfg0.N) (h : k0_cond2 (grid0.coords t) = 1#1) :
    (dats m 0 c).leavesExact 3 t = owns (c : Thread nD τ) (ms3 t) fullShare (k0_pay3 (accAt m c t.val)) := by
  unfold Dat.leavesExact; rw [live3 t h, after0_3]

set_option maxHeartbeats 4800000 in
/-- The body at any point, in the three situations a point can be in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2]
  have hN : t.val < 128 := lt_of_lt_of_eq t.isLt (show cfg0.N = 128 from N_0)
  unfold PhiS
  by_cases h0 : t.val % 64 = 0
  · have hc0 : k0_cond1 (grid0.coords t) = 1#1 := (first_iff t).mpr h0
    have hc1 : ¬ k0_cond2 (grid0.coords t) = 1#1 := fun h => by have := (last_iff t).mp h; omega
    rw [Dat.leavesExact_idle (dats m 0 c) 3 t (idle3 t hc1) (noFlush3 t hc1)]
    iintro ⟨⟨⟨%X, %hX, HS⟩, Hg⟩, Ho, ⟨%d0, H0⟩, ⟨%d1, H1⟩, ⟨%d2, H2⟩, ⟨%d3, H3⟩⟩
    iapply (run_first (F := F) c (grid0.coords t) (ms0 t) (hs0 t) (ms1 t) (hs1 t) (ms2 t) (hs2 t) (ms3 t) (hs3 t) scM (Memref.isWhole_whole _) hc0 hc1
      (iblk m c 0 t) (iblk m c 1 t) (iblk m c 2 t) _ X Set.univ _)
    isplitl [H0]; · iexact H0
    isplitl [H1]; · iexact H1
    isplitl [H2]; · iexact H2
    isplitl [H3]; · iexact H3
    isplitl [HS]; · iexact HS
    iintro ⟨H0, H1, H2, H3, ⟨%f, %hf, HS⟩⟩
    isplitl [HS Hg]
    · isplitl [HS]
      · iexists (scM.view.read (Elt F) f); isplitr
        · ipureintro; intro _
          rw [Nat.add_sub_cancel, accAt_first m c t.val h0, pt_val]
          exact (ld_row t _).trans hf
        · unfold owns; iexists f; isplitr; · ipureintro; rfl
          iexact HS
      iexact Hg
    isplitl [Ho]; · iexact Ho
    isplitl [H0]; · iexact H0
    isplitl [H1]; · iexact H1
    isplitl [H2]; · iexact H2
    iexists _; iexact H3
  · have hc0 : ¬ k0_cond1 (grid0.coords t) = 1#1 := fun h => h0 ((first_iff t).mp h)
    have hrow : (t.val - 1) / 64 = t.val / 64 := by omega
    by_cases h1 : t.val % 64 = 63
    · have hc1 : k0_cond2 (grid0.coords t) = 1#1 := (last_iff t).mpr h1
      rw [leaves3_live m c t hc1]
      iintro ⟨⟨⟨%X, %hX, HS⟩, Hg⟩, Ho, ⟨%d0, H0⟩, ⟨%d1, H1⟩, ⟨%d2, H2⟩, ⟨%d3, H3⟩⟩
      have hprev : (View.ld X (accRect (grid0.coords t)) : Vec F S1x1x1024 .f32) = accAt m c (t.val - 1) :=
        ((ld_row t X).symm.trans (ld_rowRect_congr hrow.symm X)).trans (hX h0)
      have hnew : k0_pay2 (iblk m c 0 t) (iblk m c 1 t) (iblk m c 2 t) (View.ld X (accRect (grid0.coords t))) = accAt m c t.val := by
        rw [hprev, accAt_next m c t.val h0, pt_val]
      rw [← hnew]
      iapply (run_last (F := F) c (grid0.coords t) (ms0 t) (hs0 t) (ms1 t) (hs1 t) (ms2 t) (hs2 t) (ms3 t) (hs3 t) scM (Memref.isWhole_whole _) hc0 hc1
        (iblk m c 0 t) (iblk m c 1 t) (iblk m c 2 t) _ X Set.univ _)
      isplitl [H0]; · iexact H0
      isplitl [H1]; · iexact H1
      isplitl [H2]; · iexact H2
      isplitl [H3]; · iexact H3
      isplitl [HS]; · iexact HS
      iintro ⟨H0, H1, H2, H3, ⟨%f, %hf, HS⟩⟩
      isplitl [HS Hg]
      · isplitl [HS]
        · iexists (scM.view.read (Elt F) f); isplitr
          · ipureintro; intro _
            rw [Nat.add_sub_cancel]; exact ((ld_row t _).trans hf).trans hnew
          · unfold owns; iexists f; isplitr; · ipureintro; rfl
            iexact HS
        iexact Hg
      isplitl [Ho]; · iexact Ho
      isplitl [H0]; · iexact H0
      isplitl [H1]; · iexact H1
      isplitl [H2]; · iexact H2
      iexact H3
    · have hc1 : ¬ k0_cond2 (grid0.coords t) = 1#1 := fun h => h1 ((last_iff t).mp h)
      rw [Dat.leavesExact_idle (dats m 0 c) 3 t (idle3 t hc1) (noFlush3 t hc1)]
      iintro ⟨⟨⟨%X, %hX, HS⟩, Hg⟩, Ho, ⟨%d0, H0⟩, ⟨%d1, H1⟩, ⟨%d2, H2⟩, ⟨%d3, H3⟩⟩
      have hprev : (View.ld X (accRect (grid0.coords t)) : Vec F S1x1x1024 .f32) = accAt m c (t.val - 1) :=
        ((ld_row t X).symm.trans (ld_rowRect_congr hrow.symm X)).trans (hX h0)
      have hnew : k0_pay2 (iblk m c 0 t) (iblk m c 1 t) (iblk m c 2 t) (View.ld X (accRect (grid0.coords t))) = accAt m c t.val := by
        rw [hprev, accAt_next m c t.val h0, pt_val]
      iapply (run_middle (F := F) c (grid0.coords t) (ms0 t) (hs0 t) (ms1 t) (hs1 t) (ms2 t) (hs2 t) (ms3 t) (hs3 t) scM (Memref.isWhole_whole _) hc0 hc1
        (iblk m c 0 t) (iblk m c 1 t) (iblk m c 2 t) _ X Set.univ _)
      isplitl [H0]; · iexact H0
      isplitl [H1]; · iexact H1
      isplitl [H2]; · iexact H2
      isplitl [H3]; · iexact H3
      isplitl [HS]; · iexact HS
      iintro ⟨H0, H1, H2, H3, ⟨%f, %hf, HS⟩⟩
      isplitl [HS Hg]
      · isplitl [HS]
        · iexists (scM.view.read (Elt F) f); isplitr
          · ipureintro; intro _
            rw [Nat.add_sub_cancel]; exact ((ld_row t _).trans hf).trans hnew
          · unfold owns; iexists f; isplitr; · ipureintro; rfl
            iexact HS
        iexact Hg
      isplitl [Ho]; · iexact Ho
      isplitl [H0]; · iexact H0
      isplitl [H1]; · iexact H1
      isplitl [H2]; · iexact H2
      iexists _; iexact H3

/-- At every point the body meets what the walk over the grid asks of it. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is said of the scratch there. -/
theorem hin (c : Dev nD) : Pipeline.ΦA spec0 c ⊢ (dats m 0 c).Φ 0 := by
  rw [show (dats m 0 c).Φ 0 = PhiS m c 0 from rfl, PhiA0_eq]
  unfold PhiS
  iintro ⟨⟨%d, HS⟩, Hg⟩
  isplitl [HS]
  · iexists d; isplitr
    · ipureintro; intro h; exact absurd (Nat.zero_mod 64) h
    iexact HS
  iexact Hg

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%X, %hX, HS⟩, Hg⟩
  isplitl [HS]
  · iexists X; iexact HS
  iexact Hg

/-! ## The run and the frame -/

set_option backward.isDefEq.respectTransparency.types false in
/-- Every weakly fair execution of @main terminates, with the output array at what the proof data's write-backs
    leave in it and every other unscoped buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Spec.lean ====
/-
  The soft histogram, as mathematics on the extended reals.

  A sample `x` falls in the bin centred at `l` of half-width `h` when `|x - l| < h` (strictly); `hit x l h` is 1 in
  that case and 0 otherwise. For feature `f` and bin `b` the count is the number of the 131072 rows of the flattened
  sample array (row `n` is entry `(n / 1024, n % 1024)` of the batch and time axes) whose feature-`f` entry falls in
  bin `(f, b)`, the half-width being one half of the feature's bin width. Both programs compute this count — one row
  block at a time into an accumulator, or all rows at once — and then apply the same normalisation to it.
-/
import Idealize.ShloMosaic.PureOps.Ideal
import Idealize.ShloMosaic.Lib.ValueIdx

noncomputable section

namespace Cert.Histo

open Idealize.ShloMosaic Idealize.ShloMosaic.ValueIdx

/-- 1 if `x` is strictly within `h` of `l`, else 0: the comparison's bit read as a number. -/
def hit (x l h : EReal) : EReal := (((Ideal.cmp .olt (max (x - l) (-(x - l))) h).toNat : ℝ) : EReal)

/-- One half (the float one half is exact) of a bin width. -/
def half (d : EReal) : EReal := Ideal.ofBits .f32 0x3F000000#32 * d

/-- Row `n` of the flattened samples, feature `f`, as an index of the [128, 1024, 16] array. -/
abbrev sampleIx (n : Fin 131072) (f : Fin 16) : (⟨3, ![128, 1024, 16]⟩ : Shape).Idx :=
  ix3 (⟨n.val / 1024, by have := n.isLt; omega⟩ : Fin 128) (⟨n.val % 1024, by omega⟩ : Fin 1024) f

/-- THE COUNT of bin `(f, b)`: over all rows, how many samples of feature `f` fall in the bin. -/
def cnt (x : (⟨3, ![128, 1024, 16]⟩ : Shape).Idx → EReal) (locs : (⟨2, ![16, 64]⟩ : Shape).Idx → EReal)
    (d : (⟨1, ![16]⟩ : Shape).Idx → EReal) : (⟨2, ![16, 64]⟩ : Shape).Idx → EReal :=
  fun i => ∑ n : Fin 131072, hit (x (sampleIx n (i 0))) (locs i) (half (d (ix1 (i 0))))

end Cert.Histo

end
-- ==== Proof.IdealBlocks.lean ====
import proofs.«155783_j79645873537299_2_alg».proof.Proof.IdealRun
import proofs.«155783_j79645873537299_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.Histo.Ker

open Cert.KernelIdeal Cert.KernelIdeal.Gen Cert.KernelIdeal.Body
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-! ## What the region finds in its three staged arrays

Before the region the host reshapes the samples [128, 1024, 16] to [131072, 16] and then to [2, 65536, 16] (one slab of
rows per row of the grid), flattens the bin centres [16, 64] to one row [1, 1024] (lane `64·f + b`), and forms the
half-widths `0.5 · width f`, repeated over the 64 bins of each feature, as one row [1, 1024]. -/

theorem V_v1 (c : Dev nD) : (V m c main_v1 : S2x65536x16.Idx → EReal)
    = shapeCast S2x65536x16 (shapeCast S131072x16 (m ((c : Thread nD τ).loc main_arg0)) shapeCasts_S128x1024x16_S131072x16) shapeCasts_S131072x16_S2x65536x16 := by
  show StableHlo.after hostOps0 (fun b => m (c, b)) (Proc.devRef .tc main_v1) = _
  after_results
  rfl

theorem V_v2 (c : Dev nD) : (V m c main_v2 : S1x1024.Idx → EReal)
    = shapeCast S1x1024 (m ((c : Thread nD τ).loc main_arg1)) shapeCasts_S16x64_S1x1024 := by
  show StableHlo.after hostOps0 (fun b => m (c, b)) (Proc.devRef .tc main_v2) = _
  after_results
  rfl

theorem V_v7 (c : Dev nD) : (V m c main_v7 : S1x1024.Idx → EReal)
    = shapeCast S1x1024 (mulf (broadcastInDim S1024 ![] bcast_S_S1024 (constant (F := Ideal) S_ .f32 0x3F000000#32))
        (shapeCast S1024 (broadcastInDim S16x64 ![0] bcast_S16_S16x64_0 (m ((c : Thread nD τ).loc main_arg2))) shapeCasts_S16x64_S1024)) shapeCasts_S1024_S1x1024 := by
  show StableHlo.after hostOps0 (fun b => m (c, b)) (Proc.devRef .tc main_v7) = _
  after_results
  rfl

/-- Row `q` of slab `s`, feature `f`, is row `65536·s + q` of the flattened samples. -/
theorem V_v1_apply (c : Dev nD) (s : Fin 2) (q : Fin 65536) (f : Fin 16) (n : Fin 131072) (hn : n.val = 65536 * s.val + q.val) :
    V m c main_v1 (ix3 s q f) = m ((c : Thread nD τ).loc main_arg0) (Cert.Histo.sampleIx n f) := by
  have hs := s.isLt; have hq := q.isLt; have hf := f.isLt
  rw [V_v1]
  refine (shapeCast_apply _ shapeCasts_S131072x16_S2x65536x16 (ix3 s q f) (ix2 n f) ?_).trans
    (shapeCast_apply _ shapeCasts_S128x1024x16_S131072x16 (ix2 n f) (Cert.Histo.sampleIx n f) ?_)
  · rewrite [Shape.rowMajor_val_three, Shape.rowMajor_val_two]
    show n.val * 16 + f.val = (s.val * 65536 + q.val) * 16 + f.val
    omega
  · rewrite [Shape.rowMajor_val_three, Shape.rowMajor_val_two]
    show (n.val / 1024 * 1024 + n.val % 1024) * 16 + f.val = n.val * 16 + f.val
    omega

/-- Lane `j` of the flattened bin centres is the centre of bin `j % 64` of feature `j / 64`. -/
theorem V_v2_apply (c : Dev nD) (j : Fin 1024) :
    V m c main_v2 (ix2 (0 : Fin 1) j) = m ((c : Thread nD τ).loc main_arg1) (ix2 (⟨j.val / 64, by omega⟩ : Fin 16) (⟨j.val % 64, by omega⟩ : Fin 64)) := by
  have hj := j.isLt
  rw [V_v2]
  refine shapeCast_apply _ shapeCasts_S16x64_S1x1024 (ix2 (0 : Fin 1) j) _ ?_
  rewrite [Shape.rowMajor_val_two, Shape.rowMajor_val_two]
  show j.val / 64 * 64 + j.val % 64 = 0 * 1024 + j.val
  omega

/-- Lane `j` of the half-widths is one half of the width of feature `j / 64`. -/
theorem V_v7_apply (c : Dev nD) (j : Fin 1024) :
    V m c main_v7 (ix2 (0 : Fin 1) j) = Cert.Histo.half (m ((c : Thread nD τ).loc main_arg2) (ix1 (⟨j.val / 64, by omega⟩ : Fin 16))) := by
  have hj := j.isLt
  rw [V_v7]
  refine (shapeCast_apply _ shapeCasts_S1024_S1x1024 (ix2 (0 : Fin 1) j) (ix1 j) ?_).trans ?_
  · rewrite [Shape.rowMajor_val_two, Shape.rowMajor_val_one]
    show j.val = 0 * 1024 + j.val
    omega
  · show (broadcastInDim S1024 ![] bcast_S_S1024 (constant (F := Ideal) S_ .f32 0x3F000000#32)) (ix1 j)
        * (shapeCast S1024 (broadcastInDim S16x64 ![0] bcast_S16_S16x64_0 (m ((c : Thread nD τ).loc main_arg2))) shapeCasts_S16x64_S1024) (ix1 j) = _
    unfold Cert.Histo.half
    congr 1
    refine (shapeCast_apply _ shapeCasts_S16x64_S1024 (ix1 j) (ix2 (⟨j.val / 64, by omega⟩ : Fin 16) (⟨j.val % 64, by omega⟩ : Fin 64)) ?_).trans
      (broadcastInDim_apply _ bcast_S16_S16x64_0 _ _ (ix1 (⟨j.val / 64, by omega⟩ : Fin 16)) (fun a => match a with
        | ⟨0, _⟩ => by show j.val / 64 = if (16 : Nat) = 1 then 0 else j.val / 64; rw [if_neg (by decide)]))
    rewrite [Shape.rowMajor_val_two, Shape.rowMajor_val_one]
    show j.val / 64 * 64 + j.val % 64 = j.val
    omega

/-! ## The windows' blocks, read at an index -/

/-- The printed index maps over the grid: the sample window walks the slabs row by row, the two constant rows stay put,
    the output's block is the grid row's. -/
theorem idx_facts : ∀ t : Fin cfg0.N, win0_0.index t (0 : Fin 3) = t.val / 64 ∧ win0_0.index t (1 : Fin 3) = t.val % 64
    ∧ win0_0.index t (2 : Fin 3) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 64 ∧ win0_3.index t (1 : Fin 3) = 0 ∧ win0_3.index t (2 : Fin 3) = 0 :=
  (by decide +kernel : ∀ t : Fin grid0.N, _)

/-- Row `r` of the sample block of point `t` is row `1024·t + r` of the flattened samples. -/
theorem blk0_apply (c : Dev nD) (t : Fin cfg0.N) (r : Fin 1024) (f : Fin 16) (n : Fin 131072) (hn : n.val = 1024 * t.val + r.val) :
    iblk m c 0 t (ix3 (0 : Fin 1) r f) = m ((c : Thread nD τ).loc main_arg0) (Cert.Histo.sampleIx n f) := by
  have hN : t.val < 128 := lt_of_lt_of_eq t.isLt (show cfg0.N = 128 from N_0)
  have hr := r.isLt
  obtain ⟨e0, e1, e2, -⟩ := idx_facts t
  refine Eq.trans ?_ (V_v1_apply m c (⟨t.val / 64, by omega⟩ : Fin 2) (⟨1024 * (t.val % 64) + r.val, by omega⟩ : Fin 65536) f n (by show n.val = 65536 * (t.val / 64) + (1024 * (t.val % 64) + r.val); omega))
  show V m c main_v1 (((cfg0.win 0).blk t).view.emb (ix3 (0 : Fin 1) r f)) = V m c main_v1 _
  refine congrArg (V m c main_v1) (funext fun a => Fin.ext ?_)
  match a with
  | ⟨0, _⟩ => show win0_0.index t (0 : Fin 3) * 1 + 1 * 0 = t.val / 64; omega
  | ⟨1, _⟩ => show win0_0.index t (1 : Fin 3) * 1024 + 1 * r.val = 1024 * (t.val % 64) + r.val; omega
  | ⟨2, _⟩ => show win0_0.index t (2 : Fin 3) * 16 + 1 * f.val = f.val; omega

/-- The bin-centre block is the whole flattened row at every point. -/
theorem blk1_apply (c : Dev nD) (t : Fin cfg0.N) (j : Fin 1024) :
    iblk m c 1 t (ix2 (0 : Fin 1) j) = m ((c : Thread nD τ).loc main_arg1) (ix2 (⟨j.val / 64, by omega⟩ : Fin 16) (⟨j.val % 64, by omega⟩ : Fin 64)) := by
  obtain ⟨-, -, -, e3, e4, -⟩ := idx_facts t
  refine Eq.trans ?_ (V_v2_apply m c j)
  show V m c main_v2 (((cfg0.win 1).blk t).view.emb (ix2 (0 : Fin 1) j)) = V m c main_v2 _
  refine congrArg (V m c main_v2) (funext fun a => Fin.ext ?_)
  match a with
  | ⟨0, _⟩ => show win0_1.index t (0 : Fin 2) * 1 + 1 * 0 = 0; omega
  | ⟨1, _⟩ => show win0_1.index t (1 : Fin 2) * 1024 + 1 * j.val = j.val; omega

/-- So is the half-width block. -/
theorem blk2_apply (c : Dev nD) (t : Fin cfg0.N) (j : Fin 1024) :
    iblk m c 2 t (ix2 (0 : Fin 1) j) = Cert.Histo.half (m ((c : Thread nD τ).loc main_arg2) (ix1 (⟨j.val / 64, by omega⟩ : Fin 16))) := by
  obtain ⟨-, -, -, -, -, e5, e6, -⟩ := idx_facts t
  refine Eq.trans ?_ (V_v7_apply m c j)
  show V m c main_v7 (((cfg0.win 2).blk t).view.emb (ix2 (0 : Fin 1) j)) = V m c main_v7 _
  refine congrArg (V m c main_v7) (funext fun a => Fin.ext ?_)
  match a with
  | ⟨0, _⟩ => show win0_2.index t (0 : Fin 2) * 1 + 1 * 0 = 0; omega
  | ⟨1, _⟩ => show win0_2.index t (1 : Fin 2) * 1024 + 1 * j.val = j.val; omega

end Cert.Histo.Ker

end
-- ==== Proof.IdealArray.lean ====
import proofs.«155783_j79645873537299_2_alg».proof.Proof.IdealRun
import proofs.«155783_j79645873537299_2_alg».proof.Proof.Spec
import proofs.«155783_j79645873537299_2_alg».proof.Proof.IdealBlocks
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.Histo.Ker

open Cert.KernelIdeal Cert.KernelIdeal.Gen Cert.KernelIdeal.Body
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-! ## The output array after the run

Row `s` of the output array [2, 1, 1024] is written back once, at the last point `64·s + 63` of row `s` of the grid,
from the output block, which there holds the row's slice of the accumulator: the running sum after that point. -/

/-- The copy to the output block changes nothing: two casts that undo each other. -/
theorem pay3_id (v : Vec Ideal S1x1x1024 .f32) : k0_pay3 (F := Ideal) v = v := by
  unfold k0_pay3
  exact shapeCast_shapeCast v _ _

/-- What the output array ends holding: row `s` is the running sum after the last point of grid row `s`. -/
def outArr (c : Dev nD) : S2x1x1024.Idx → EReal :=
  fun y => accAt m c (64 * (y 0).val + 63) (ix3 (0 : Fin 1) (0 : Fin 1) (y 2))

theorem flushed_eq (c : Dev nD) (t : Fin cfg0.N) (hf : (cfg0.win 3).flush t = true) :
    (dats m 0 c).flushed 3 t = ((cfg0.win 3).blk t).view.read (Elt Ideal) (outArr m c) := by
  have h63 : t.val % 64 = 63 := (flush0_3 t).mp hf
  obtain ⟨-, -, -, -, -, -, -, e7, e8, e9⟩ := idx_facts t
  show (cfg0.win 3).cut (grid0.coords t) ((dats m 0 c).after 3 t) = _
  rw [after0_3, pay3_id]
  funext y
  have h0 : (y 0).val < 1 := (y 0).isLt
  have h1 : (y 1).val < 1 := (y 1).isLt
  show accAt m c t.val y = outArr m c (((cfg0.win 3).blk t).view.emb y)
  unfold outArr
  have ea : 64 * ((((cfg0.win 3).blk t).view.emb y) 0).val + 63 = t.val := by
    show 64 * (win0_3.index t (0 : Fin 3) * 1 + 1 * (y 0).val) + 63 = t.val
    omega
  have eb : ix3 (0 : Fin 1) (0 : Fin 1) ((((cfg0.win 3).blk t).view.emb y) 2) = y := by
    funext a
    match a with
    | ⟨0, _⟩ => exact Fin.ext (by show 0 = (y 0).val; omega)
    | ⟨1, _⟩ => exact Fin.ext (by show 0 = (y 1).val; omega)
    | ⟨2, _⟩ => exact Fin.ext (by show win0_3.index t (2 : Fin 3) * 1024 + 1 * (y 2).val = (y 2).val; omega)
  rw [ea]
  exact congrArg (accAt m c t.val) eb.symm

theorem mem_blk3 (t : Fin cfg0.N) (i : S2x1x1024.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v8).slice (win0_3.rect t)).set ↔ _
  rw [View.set_slice_whole, Rect.mem_set_unit]
  exact Iff.rfl

/-- Every entry of the output array lies in the block of the last point of its row. -/
theorem cover (i : S2x1x1024.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1024 := (i 2).isLt
  have hlt : 64 * (i 0).val + 63 < cfg0.N := by rw [show cfg0.N = 128 from N_0]; omega
  refine ⟨⟨64 * (i 0).val + 63, hlt⟩, (flush0_3 _).mpr (by show (64 * (i 0).val + 63) % 64 = 63; omega), ?_⟩
  rw [mem_blk3]
  obtain ⟨-, -, -, -, -, -, -, e7, e8, e9⟩ := idx_facts ⟨64 * (i 0).val + 63, hlt⟩
  have e7' : win0_3.index ⟨64 * (i 0).val + 63, hlt⟩ (0 : Fin 3) = (64 * (i 0).val + 63) / 64 := e7
  intro a
  match a with
  | ⟨0, _⟩ =>
    show win0_3.index ⟨64 * (i 0).val + 63, hlt⟩ (0 : Fin 3) * 1 ≤ (i 0).val ∧ (i 0).val < win0_3.index ⟨64 * (i 0).val + 63, hlt⟩ (0 : Fin 3) * 1 + 1
    omega
  | ⟨1, _⟩ =>
    show win0_3.index ⟨64 * (i 0).val + 63, hlt⟩ (1 : Fin 3) * 1 ≤ (i 1).val ∧ (i 1).val < win0_3.index ⟨64 * (i 0).val + 63, hlt⟩ (1 : Fin 3) * 1 + 1
    omega
  | ⟨2, _⟩ =>
    show win0_3.index ⟨64 * (i 0).val + 63, hlt⟩ (2 : Fin 3) * 1024 ≤ (i 2).val ∧ (i 2).val < win0_3.index ⟨64 * (i 0).val + 63, hlt⟩ (2 : Fin 3) * 1024 + 1024
    omega

/-- THE OUTPUT ARRAY after the run. -/
theorem final (c : Dev nD) : (dats m 0 c).arrAt 3 cfg0.N = outArr m c :=
  (dats m 0 c).arrAt_eq_of_cover 3 (outArr m c) (fun t hf => flushed_eq m c t hf) (cover)

/-! ## The host operations after the region -/

/-- From the per-bin counts to the loss: divide by the number of rows and by the bin width, take the distance to the
    stored density, average over the 64 bins, then over the 16 features. -/
def normTail (cnt : FVec Ideal S16x64 .f32) (d : FVec Ideal S16 .f32) (dens : FVec Ideal S16x64 .f32) : FVec Ideal S_ .f32 :=
  Host.divf (Host.reduceAdd (Host.divf (Host.reduceAdd (Host.absf (subf (Host.divf (Host.divf cnt
      (broadcastInDim S16x64 ![] bcast_S_S16x64 (constant (F := Ideal) S_ .f32 0x48000000#32)))
      (broadcastInDim S16x64 ![0, 1] bcast_S16x1_S16x64_0_1 (broadcastInDim S16x1 ![0] bcast_S16_S16x1_0 d))) dens))
      (constant (F := Ideal) S_ .f32 0x00000000#32) reducesTo_S16x64_S16_d1 h_S_)
      (broadcastInDim S16 ![] bcast_S_S16 (constant (F := Ideal) S_ .f32 0x42800000#32)))
      (constant (F := Ideal) S_ .f32 0x00000000#32) reducesTo_S16_S_d0 h_S_)
    (constant (F := Ideal) S_ .f32 0x41800000#32)

/-- The counts as the host forms them from the output array: the two rows added, lane `64·f + b` to bin `(f, b)`. -/
def kcount (G : FVec Ideal S2x1x1024 .f32) : FVec Ideal S16x64 .f32 :=
  shapeCast S16x64 (Host.reduceAdd (shapeCast S2x1024 G shapeCasts_S2x1x1024_S2x1024)
    (constant (F := Ideal) S_ .f32 0x00000000#32) reducesTo_S2x1024_S1024_d0 h_S_) shapeCasts_S1024_S16x64

/-- The result buffer after the host tail, from the region's exit contents. -/
theorem tail_eq (c : Dev nD) :
    Pipeline.afterTail₀ cfgs (dats m) 0 (V0 m) [hostOps1] c main_v23
      = normTail (kcount (outArr m c)) (m ((c : Thread nD τ).loc main_arg2)) (m ((c : Thread nD τ).loc main_arg3)) := by
  have e8 : Pipeline.withArrays spec0 c (V0 m c) (fun w => (dats m 0 c).arrAt w cfg0.N) (Proc.devRef .tc main_v8) = outArr m c :=
    (Pipeline.withArrays_arr spec0 launch0.win.arr_inj c _ _ 3).trans (final m c)
  have e2 : Pipeline.withArrays spec0 c (V0 m c) (fun w => (dats m 0 c).arrAt w cfg0.N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays spec0 c (V0 m c) (fun w => (dats m 0 c).arrAt w cfg0.N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  rw [← e8, ← e2, ← e3]
  unfold Pipeline.afterTail₀
  show StableHlo.after hostOps1 _ (Proc.devRef .tc main_v23) = _
  after_results
  rfl

end Cert.Histo.Ker

end
-- ==== Proof.IdealPayload.lean ====
/-
  The kernel body's three stored values, read at an index, on the extended reals.

  The body holds a block of samples `x0 : [1, 1024, 16]` (1024 rows, 16 features), a row of bin centres
  `x1 : [1, 1024]` and a row of half-widths `x2 : [1, 1024]` (lane `64·f + b` is bin `b` of feature `f`), and the
  accumulator `p : [1, 1, 1024]`. The samples are re-laid as a `[1024, 1024]` array whose entry `(r, l)` is sample row `r`,
  feature `l / 64`; the two rows are repeated down the 1024 rows; the indicator of `|x - centre| < half-width` is formed
  entry by entry as a number 0 or 1, summed down each column, and added to the accumulator. So at lane `j` the stored value
  is the accumulator plus the count, over the block's rows, of the samples of feature `j / 64` that fall in the bin of lane
  `j` (`pay2_apply`). The other two stored values are the zero vector (`pay1_apply`) and the accumulator itself
  (`pay3_eq`).
-/
import proofs.«155783_j79645873537299_2_alg».proof.Proof.Gen.KernelIdeal.Skeleton
import proofs.«155783_j79645873537299_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Histo.Pay

open Cert.KernelIdeal Cert.KernelIdeal.Gen Idealize.ShloMosaic Idealize.ShloMosaic.ValueIdx

variable {α : Type}

/-! ## The layout operations of the payload, each read at explicit coordinates -/

/-- A `[a, b]` array cast to `[a, b, 1]` reads, at `(r, f, u)`, the operand at `(r, f)`. -/
theorem shapeCast_ab_ab1_apply {a b : ℕ} (x : (⟨2, ![a, b]⟩ : Shape).Idx → α)
    (h : (⟨2, ![a, b]⟩ : Shape).ShapeCasts ⟨3, ![a, b, 1]⟩) (r : Fin a) (f : Fin b) (u : Fin 1) :
    shapeCast ⟨3, ![a, b, 1]⟩ x h (ix3 r f u) = x (ix2 r f) :=
  shapeCast_apply x h _ _ (by
    have hu : u.val = 0 := by omega
    rw [Shape.rowMajor_val_three, Shape.rowMajor_val_two]
    show r.val * b + f.val = (r.val * b + f.val) * 1 + u.val
    rw [hu, Nat.mul_one, Nat.add_zero])

/-- An `[a, b, 1]` array broadcast to `[a, b, c]` reads, at `(r, f, l)`, the operand at `(r, f, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (f : Fin b) (l : Fin c) :
    broadcastTo ⟨3, ![a, b, c]⟩ x h (ix3 r f l) = x (ix3 r f (0 : Fin 1)) := by
  refine broadcastTo_apply x h (ix3 r f l) (ix3 r f (0 : Fin 1)) fun ax => ?_
  match ax with
  | ⟨0, _⟩ =>
    show r.val = if a = 1 then 0 else r.val
    split
    · have := r.isLt; omega
    · rfl
  | ⟨1, _⟩ =>
    show f.val = if b = 1 then 0 else f.val
    split
    · have := f.isLt; omega
    · rfl
  | ⟨2, _⟩ => rfl

/-- A `[1024, 16, 64]` array cast to `[1024, 1024]` reads, at `(r, l)`, the operand at `(r, l / 64, l % 64)`. -/
theorem shapeCast_1024x16x64_apply (x : S1024x16x64.Idx → α) (h : S1024x16x64.ShapeCasts S1024x1024)
    (r l : Fin 1024) :
    shapeCast S1024x1024 x h (ix2 r l)
      = x (ix3 r (⟨l.val / 64, by omega⟩ : Fin 16) (⟨l.val % 64, by omega⟩ : Fin 64)) :=
  shapeCast_apply x h _ _ (by
    rw [Shape.rowMajor_val_three, Shape.rowMajor_val_two]
    show (r.val * 16 + l.val / 64) * 64 + l.val % 64 = r.val * 1024 + l.val
    omega)

/-- The samples block `[1, 1024, 16]` spread over the lanes: at `(r, l)` it is sample row `r`, feature `l / 64`. -/
theorem samples_apply (x0 : S1x1024x16.Idx → α) (r l : Fin 1024) :
    shapeCast S1024x1024
        (broadcastTo S1024x16x64
          (shapeCast S1024x16x1 (shapeCast S1024x16 x0 shapeCasts_S1x1024x16_S1024x16) shapeCasts_S1024x16_S1024x16x1)
          broadcasts_S1024x16x1_S1024x16x64)
        shapeCasts_S1024x16x64_S1024x1024 (ix2 r l)
      = x0 (ix3 (0 : Fin 1) r (⟨l.val / 64, by omega⟩ : Fin 16)) := by
  refine (shapeCast_1024x16x64_apply _ _ r l).trans ?_
  refine (broadcastTo_ab1_abc_apply _ _ r _ _).trans ?_
  refine (shapeCast_ab_ab1_apply _ _ r _ (0 : Fin 1)).trans ?_
  exact shapeCast_1ab_ab_apply x0 _ r _

/-- A `[1, 1024]` row broadcast down the 1024 rows: at `(r, l)` it is the row at lane `l`. -/
theorem row_apply (x1 : S1x1024.Idx → α) (r l : Fin 1024) :
    broadcastTo S1024x1024 (shapeCast S1x1024 x1 shapeCasts_S1x1024_S1x1024) broadcasts_S1x1024_S1024x1024 (ix2 r l)
      = x1 (ix2 (0 : Fin 1) l) := by
  rw [shapeCast_self]
  exact broadcastTo_1b_ab_apply x1 _ r l

/-! ## The indicator: a one-bit comparison widened to 32 bits and read as a signed integer is 0 or 1 -/

/-- A one-bit word zero-extended to 32 bits and read signed is the bit's own value. -/
theorem toInt_setWidth_bit (b : BitVec 1) : (((b.setWidth 32).toInt : ℝ) : EReal) = ((b.toNat : ℝ) : EReal) := by
  rcases BitVec.eq_zero_or_eq_one b with rfl | rfl
  · simp
  · simp

/-- The chain compare-below, widen, convert of `|a - b|` against `c`, at any index: the 0-or-1 value `hit`. -/
theorem indicator_at {s : Shape} (A B C : FVec Ideal s .f32) (h : 1 < 32) (i : s.Idx) :
    (sitofp (F := Ideal) FTy.f32 (extui 32 (cmpf CmpFPredicate.olt (absf (subf A B)) C) h) : FVec Ideal s .f32) i
      = Cert.Histo.hit (A i) (B i) (C i) := by
  show ((((Ideal.cmp .olt (max (A i - B i) (-(A i - B i))) (C i)).setWidth 32).toInt : ℝ) : EReal) = _
  rw [toInt_setWidth_bit]
  rfl

/-- The kernel's indicator at row `r`, lane `l`: whether sample `(r, l / 64)` is strictly within the half-width at lane
    `l` of the centre at lane `l`. -/
theorem indicator_apply (x0 : FVec Ideal S1x1024x16 .f32) (x1 x2 : FVec Ideal S1x1024 .f32) (r l : Fin 1024) :
    (sitofp (F := Ideal) FTy.f32
        (extui 32
          (cmpf CmpFPredicate.olt
            (absf
              (subf
                (shapeCast S1024x1024
                  (broadcastTo S1024x16x64
                    (shapeCast S1024x16x1 (shapeCast S1024x16 x0 shapeCasts_S1x1024x16_S1024x16)
                      shapeCasts_S1024x16_S1024x16x1)
                    broadcasts_S1024x16x1_S1024x16x64)
                  shapeCasts_S1024x16x64_S1024x1024)
                (broadcastTo S1024x1024 (shapeCast S1x1024 x1 shapeCasts_S1x1024_S1x1024)
                  broadcasts_S1x1024_S1024x1024)))
            (broadcastTo S1024x1024 (shapeCast S1x1024 x2 shapeCasts_S1x1024_S1x1024)
              broadcasts_S1x1024_S1024x1024))
          natLt_1_32) : FVec Ideal S1024x1024 .f32) (ix2 r l)
      = Cert.Histo.hit (x0 (ix3 (0 : Fin 1) r (⟨l.val / 64, by omega⟩ : Fin 16))) (x1 (ix2 (0 : Fin 1) l))
          (x2 (ix2 (0 : Fin 1) l)) := by
  refine (indicator_at _ _ _ _ _).trans ?_
  rw [samples_apply x0 r l, row_apply x1 r l, row_apply x2 r l]

/-! ## The lane sum -/

/-- The sum over axis 0 of a `[1024, 1024]` vector from the zero word: at lane `l`, the sum of column `l`. -/
theorem colsum_apply (v : FVec Ideal S1024x1024 .f32) (h : S1024x1024.Reduces [0] S1024) (hφ : FKind.Formats FTy.f32)
    (hacc : (0x00000000#32 : BitVec 32) = FKind.add.neutral FTy.f32 hφ) (l : Fin 1024) :
    multiReduction (F := Ideal) FKind.add [0] S1024 v 0x00000000#32 h hφ hacc (ix1 l) = ∑ r : Fin 1024, v (ix2 r l) := by
  refine (Ideal.multiReduction_add_single v 0x00000000#32 h hφ hacc (ix1 l)).trans ?_
  refine Finset.sum_congr rfl fun r _ => congrArg v ?_
  funext a
  match a with
  | ⟨0, _⟩ => exact Fin.ext rfl
  | ⟨1, _⟩ => exact Fin.ext rfl

/-! ## The three payloads -/

/-- The first payload is the zero vector. -/
theorem pay1_apply (y : S1x1x1024.Idx) : k0_pay1 (F := Ideal) y = 0 := by
  unfold k0_pay1
  obtain ⟨a, b, c, rfl⟩ : ∃ (a : Fin 1) (b : Fin 1) (c : Fin 1024), y = ix3 a b c := ⟨y 0, y 1, y 2, eq_ix3 y⟩
  refine (shapeCast_ab_1ab_apply _ _ a b c).trans ?_
  rw [broadcast_apply]
  exact Ideal.ofBits_zero_f32

/-- The third payload, a cast there and back, is its operand. -/
theorem pay3_eq (v : Vec Ideal S1x1x1024 .f32) : k0_pay3 (F := Ideal) v = v := by
  unfold k0_pay3
  exact shapeCast_shapeCast v _ _

/-- The second payload at lane `j`: the previous accumulator there plus the number of the block's 1024 sample rows whose
    feature `j / 64` falls in the bin of lane `j`. -/
theorem pay2_apply (x0 : Vec Ideal S1x1024x16 .f32) (x1 x2 : Vec Ideal S1x1024 .f32) (p : Vec Ideal S1x1x1024 .f32) (j : Fin 1024) :
    k0_pay2 (F := Ideal) x0 x1 x2 p (ix3 (0 : Fin 1) (0 : Fin 1) j)
      = p (ix3 (0 : Fin 1) (0 : Fin 1) j)
        + ∑ r : Fin 1024, Cert.Histo.hit (x0 (ix3 (0 : Fin 1) r (⟨j.val / 64, by omega⟩ : Fin 16))) (x1 (ix2 (0 : Fin 1) j)) (x2 (ix2 (0 : Fin 1) j)) := by
  unfold k0_pay2
  refine (shapeCast_ab_1ab_apply _ _ 0 0 j).trans ?_
  rw [addf_apply]
  refine congrArg₂ (· + ·) (shapeCast_1ab_ab_apply p _ 0 j) ?_
  refine (shapeCast_a_1a_apply _ _ 0 j).trans ?_
  refine (colsum_apply _ _ _ _ j).trans ?_
  exact Finset.sum_congr rfl fun r _ => indicator_apply x0 x1 x2 r j

end Cert.Histo.Pay

end
-- ==== Proof.LibSumBlocks.lean ====
/-
  A sum of `J · n` consecutive terms cut into `n` consecutive blocks of `J` terms each: adding block by block
  gives the same total as adding all terms at once. Only commutativity and associativity of `+` are used, so
  the statement holds in every commutative additive monoid — in particular on the extended reals, where a sum
  may contain infinities and no cancellation law is available.
-/
import Mathlib.Algebra.BigOperators.Fin
import Mathlib.Algebra.BigOperators.Intervals

namespace Cert.LibSumBlocks

/-- Block `s` holds the terms `J·s, …, J·s + J - 1`; the first `n` blocks together are the first `J·n` terms. -/
theorem sum_blocks_range {β : Type*} [AddCommMonoid β] (g : ℕ → β) (J : ℕ) :
    ∀ n : ℕ, ∑ s ∈ Finset.range n, ∑ j ∈ Finset.range J, g (J * s + j) = ∑ k ∈ Finset.range (J * n), g k
  | 0 => by simp
  | n + 1 => by
    rw [Finset.sum_range_succ, sum_blocks_range g J n, Nat.mul_succ, Finset.sum_range_add]

/-- The same with the inner sums and the total indexed by `Fin`. -/
theorem sum_blocks_fin {β : Type*} [AddCommMonoid β] (g : ℕ → β) (J n : ℕ) :
    ∑ s ∈ Finset.range n, ∑ j : Fin J, g (J * s + j.val) = ∑ k : Fin (J * n), g k.val := by
  rw [Fin.sum_univ_eq_sum_range (fun k => g k) (J * n), ← sum_blocks_range g J n]
  refine Finset.sum_congr rfl fun s _ => ?_
  exact Fin.sum_univ_eq_sum_range (fun j => g (J * s + j)) J

end Cert.LibSumBlocks
-- ==== Proof.IdealCount.lean ====
import proofs.«155783_j79645873537299_2_alg».proof.Proof.IdealRun
import proofs.«155783_j79645873537299_2_alg».proof.Proof.Spec
import proofs.«155783_j79645873537299_2_alg».proof.Proof.IdealArray
import proofs.«155783_j79645873537299_2_alg».proof.Proof.IdealPayload
import proofs.«155783_j79645873537299_2_alg».proof.Proof.LibSumBlocks
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.Histo.Ker

open Cert.KernelIdeal Cert.KernelIdeal.Gen Cert.KernelIdeal.Body
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-! ## The kernel's count is the count of all rows

Lane `j = 64·f + b` of the accumulator collects, point by point, the indicators of bin `(f, b)` over the 1024 rows of
the point's sample block; point `t` holds rows `1024·t … 1024·t + 1023` of the flattened samples. A grid row is 64
points, so the slice of grid row `s` ends at the sum over rows `65536·s … 65536·s + 65535`, and the host adds the two
slices. Only associativity and commutativity of `+` on the extended reals are used. -/

/-- The indicator of flattened row `k` (read modulo the number of rows) for lane `j`. -/
def rowHit (c : Dev nD) (j : Fin 1024) (k : ℕ) : EReal :=
  Cert.Histo.hit
    (m ((c : Thread nD τ).loc main_arg0) (Cert.Histo.sampleIx (⟨k % 131072, Nat.mod_lt _ (by decide)⟩ : Fin 131072) (⟨j.val / 64, by omega⟩ : Fin 16)))
    (m ((c : Thread nD τ).loc main_arg1) (ix2 (⟨j.val / 64, by omega⟩ : Fin 16) (⟨j.val % 64, by omega⟩ : Fin 64)))
    (Cert.Histo.half (m ((c : Thread nD τ).loc main_arg2) (ix1 (⟨j.val / 64, by omega⟩ : Fin 16))))

/-- The column sum of lane `j` over the block of point number `t`. -/
def blockSum (c : Dev nD) (j : Fin 1024) (t : ℕ) : EReal := ∑ r ∈ Finset.range 1024, rowHit m c j (1024 * t + r)

theorem pt_lt (n : ℕ) (hn : n < 128) : (pt n).val = n := Nat.mod_eq_of_lt hn

/-- For a row number below the number of rows and lane `j = 64·f + b` this is the specification's summand of bin `(f, b)`. -/
theorem rowHit_eq (c : Dev nD) (j : Fin 1024) (f : Fin 16) (b : Fin 64) (hjf : j.val / 64 = f.val) (hjb : j.val % 64 = b.val) (n : Fin 131072) :
    rowHit m c j n.val = Cert.Histo.hit (m ((c : Thread nD τ).loc main_arg0) (Cert.Histo.sampleIx n f))
      (m ((c : Thread nD τ).loc main_arg1) (ix2 f b)) (Cert.Histo.half (m ((c : Thread nD τ).loc main_arg2) (ix1 f))) := by
  unfold rowHit
  have hn : (⟨n.val % 131072, Nat.mod_lt _ (by decide)⟩ : Fin 131072) = n := Fin.ext (Nat.mod_eq_of_lt n.isLt)
  have h1 : (⟨j.val / 64, by omega⟩ : Fin 16) = f := Fin.ext hjf
  have h2 : (⟨j.val % 64, by omega⟩ : Fin 64) = b := Fin.ext hjb
  rw [hn, h1, h2]

/-- The column sums the body forms at point `t` are the indicators of the rows of that point's block. -/
theorem colsum_eq (c : Dev nD) (t : Fin cfg0.N) (j : Fin 1024) :
    ∑ r : Fin 1024, Cert.Histo.hit (iblk m c 0 t (ix3 (0 : Fin 1) r (⟨j.val / 64, by omega⟩ : Fin 16))) (iblk m c 1 t (ix2 (0 : Fin 1) j)) (iblk m c 2 t (ix2 (0 : Fin 1) j))
      = blockSum m c j t.val := by
  have hN : t.val < 128 := lt_of_lt_of_eq t.isLt (show cfg0.N = 128 from N_0)
  unfold blockSum
  rw [← Fin.sum_univ_eq_sum_range (fun r => rowHit m c j (1024 * t.val + r)) 1024]
  refine Finset.sum_congr rfl fun r _ => ?_
  have hr := r.isLt
  rw [blk0_apply m c t r _ (⟨(1024 * t.val + r.val) % 131072, Nat.mod_lt _ (by decide)⟩ : Fin 131072)
    (by show (1024 * t.val + r.val) % 131072 = 1024 * t.val + r.val; omega), blk1_apply, blk2_apply]
  rfl

theorem acc_first (c : Dev nD) (j : Fin 1024) (n : ℕ) (hn : n < 128) (h : n % 64 = 0) :
    accAt m c n (ix3 (0 : Fin 1) (0 : Fin 1) j) = blockSum m c j n := by
  rw [accAt_first m c n h, Cert.Histo.Pay.pay2_apply, Cert.Histo.Pay.pay1_apply, zero_add, colsum_eq, pt_lt n hn]

theorem acc_next (c : Dev nD) (j : Fin 1024) (n : ℕ) (hn : n < 128) (h : n % 64 ≠ 0) :
    accAt m c n (ix3 (0 : Fin 1) (0 : Fin 1) j) = accAt m c (n - 1) (ix3 (0 : Fin 1) (0 : Fin 1) j) + blockSum m c j n := by
  rw [accAt_next m c n h, Cert.Histo.Pay.pay2_apply, colsum_eq, pt_lt n hn]

/-- THE RUNNING SUM after point `n`: the blocks of its grid row up to and including its own. -/
theorem acc_apply (c : Dev nD) (j : Fin 1024) : ∀ n, n < 128 →
    accAt m c n (ix3 (0 : Fin 1) (0 : Fin 1) j) = ∑ i ∈ Finset.range (n % 64 + 1), blockSum m c j (64 * (n / 64) + i) := by
  intro n
  induction n with
  | zero =>
    intro hn
    rw [acc_first m c j 0 hn rfl]
    simp
  | succ n ih =>
    intro hn
    by_cases h : (n + 1) % 64 = 0
    · rw [acc_first m c j (n + 1) hn h, h, Finset.sum_range_one]
      exact congrArg (blockSum m c j) (by omega)
    · have e1 : (n + 1) % 64 = n % 64 + 1 := by omega
      have e2 : (n + 1) / 64 = n / 64 := by omega
      rw [acc_next m c j (n + 1) hn h, Nat.add_sub_cancel, ih (by omega), e1, e2, Finset.sum_range_succ _ (n % 64 + 1)]
      exact congrArg (_ + ·) (congrArg (blockSum m c j) (by omega))

/-- The slice of grid row `s` ends at the sum over that row's 65536 sample rows. -/
theorem row_total (c : Dev nD) (j : Fin 1024) (s : ℕ) (hs : s < 2) :
    accAt m c (64 * s + 63) (ix3 (0 : Fin 1) (0 : Fin 1) j) = ∑ k ∈ Finset.range 65536, rowHit m c j (65536 * s + k) := by
  have e1 : (64 * s + 63) % 64 + 1 = 64 := by omega
  have e2 : (64 * s + 63) / 64 = s := by omega
  rw [acc_apply m c j (64 * s + 63) (by omega), e1, e2]
  calc ∑ i ∈ Finset.range 64, blockSum m c j (64 * s + i)
      = ∑ i ∈ Finset.range 64, ∑ r ∈ Finset.range 1024, rowHit m c j (65536 * s + (1024 * i + r)) :=
        Finset.sum_congr rfl fun i _ => Finset.sum_congr rfl fun r _ => congrArg (rowHit m c j) (by omega)
    _ = ∑ k ∈ Finset.range (1024 * 64), rowHit m c j (65536 * s + k) :=
        Cert.LibSumBlocks.sum_blocks_range (fun k => rowHit m c j (65536 * s + k)) 1024 64
    _ = ∑ k ∈ Finset.range 65536, rowHit m c j (65536 * s + k) := by norm_num

/-- The host's sum of the two rows of the output array, lane `64·f + b` read as bin `(f, b)`. -/
theorem kcount_apply (G : FVec Ideal S2x1x1024 .f32) (f : Fin 16) (b : Fin 64) (j : Fin 1024) (hj : j.val = 64 * f.val + b.val) :
    kcount G (ix2 f b) = Ideal.ofBits .f32 0x00000000#32 + ∑ s : Fin 2, G (ix3 s (0 : Fin 1) j) := by
  have hf := f.isLt; have hb := b.isLt
  unfold kcount
  refine (shapeCast_apply _ shapeCasts_S1024_S16x64 (ix2 f b) (ix1 j) ?_).trans ?_
  · rewrite [Shape.rowMajor_val_one, Shape.rowMajor_val_two]
    show j.val = f.val * 64 + b.val
    omega
  · simp only [Host.reduceAdd, Ideal.hostReduceAdd_def]
    rw [Ideal.hostReduceAdd_single reducesTo_S2x1024_S1024_d0 (by decide)]
    refine congrArg₂ (· + ·) rfl (Finset.sum_congr rfl fun s _ => ?_)
    refine shapeCast_apply _ shapeCasts_S2x1x1024_S2x1024 _ (ix3 s (0 : Fin 1) j) ?_
    rewrite [Shape.rowMajor_val_three, Shape.rowMajor_val_two]
    show (s.val * 1 + 0) * 1024 + j.val = s.val * 1024 + j.val
    omega

/-- THE KERNEL'S COUNT is the count of all rows. -/
theorem kcount_eq (c : Dev nD) :
    kcount (outArr m c) = Cert.Histo.cnt (m ((c : Thread nD τ).loc main_arg0)) (m ((c : Thread nD τ).loc main_arg1)) (m ((c : Thread nD τ).loc main_arg2)) := by
  funext i
  obtain ⟨f, b, rfl⟩ : ∃ (f : Fin 16) (b : Fin 64), i = ix2 f b := ⟨i 0, i 1, eq_ix2 i⟩
  have hf := f.isLt; have hb := b.isLt
  have hjlt : 64 * f.val + b.val < 1024 := by omega
  rw [kcount_apply (outArr m c) f b ⟨64 * f.val + b.val, hjlt⟩ rfl, Ideal.ofBits_zero_f32, zero_add]
  calc ∑ s : Fin 2, outArr m c (ix3 s (0 : Fin 1) (⟨64 * f.val + b.val, hjlt⟩ : Fin 1024))
      = ∑ s ∈ Finset.range 2, accAt m c (64 * s + 63) (ix3 (0 : Fin 1) (0 : Fin 1) (⟨64 * f.val + b.val, hjlt⟩ : Fin 1024)) :=
        Fin.sum_univ_eq_sum_range (fun s => accAt m c (64 * s + 63) (ix3 (0 : Fin 1) (0 : Fin 1) (⟨64 * f.val + b.val, hjlt⟩ : Fin 1024))) 2
    _ = ∑ s ∈ Finset.range 2, ∑ k ∈ Finset.range 65536, rowHit m c ⟨64 * f.val + b.val, hjlt⟩ (65536 * s + k) :=
        Finset.sum_congr rfl fun s hs => row_total m c _ s (Finset.mem_range.mp hs)
    _ = ∑ k ∈ Finset.range (65536 * 2), rowHit m c ⟨64 * f.val + b.val, hjlt⟩ k :=
        Cert.LibSumBlocks.sum_blocks_range (rowHit m c ⟨64 * f.val + b.val, hjlt⟩) 65536 2
    _ = ∑ n : Fin 131072, rowHit m c ⟨64 * f.val + b.val, hjlt⟩ n.val :=
        (Fin.sum_univ_eq_sum_range (fun k => rowHit m c ⟨64 * f.val + b.val, hjlt⟩ k) 131072).symm
    _ = Cert.Histo.cnt (m ((c : Thread nD τ).loc main_arg0)) (m ((c : Thread nD τ).loc main_arg1)) (m ((c : Thread nD τ).loc main_arg2)) (ix2 f b) :=
        Finset.sum_congr rfl fun n _ => rowHit_eq m c ⟨64 * f.val + b.val, hjlt⟩ f b
          (by show (64 * f.val + b.val) / 64 = f.val; omega) (by show (64 * f.val + b.val) % 64 = b.val; omega) n

end Cert.Histo.Ker

end
-- ==== Proof.RefCount.lean ====
/-
  The reference's count is the specification's count.

  For bin `(f, b)` the reference sums, over the 131072 rows `k` of the flattened sample array, the number
  `[max (h - |x - l|) 0 > 0]`, where `x` is the feature-`f` entry of row `k`, `l` the bin's centre and `h` the feature's
  bin width times one half. On the extended reals `0 < max (h - a) 0` holds exactly when `0 < h - a`, that is when
  `a < h` (at every extended real, the infinities included), so each summand is the specification's `hit x l h`; the
  sum starts from the zero word, which is `0`. The row `k`, feature `f` entry of the flattened array is the
  `(k / 1024, k % 1024, f)` entry of the [128, 1024, 16] array: the flat position `k * 16 + f` read back by division.
-/
import proofs.«155783_j79645873537299_2_alg».proof.Proof.Gen.ReferenceIdeal.Read
import proofs.«155783_j79645873537299_2_alg».proof.Proof.Spec

noncomputable section

namespace Cert.Histo.Ref

open Cert.ReferenceIdeal Cert.ReferenceIdeal.Read Cert.ReferenceIdeal.Gen Idealize.ShloMosaic Idealize.ShloMosaic.ValueIdx

/-! ## Where each argument is read -/

/-- The sample read for row `k` and bin `i = (f, b)`: through the two broadcasts and the reshape, the flat position
    `k * 16 + f` of the [128, 1024, 16] array, whose coordinates are `(k / 1024, k % 1024, f)` since `f < 16`. -/
theorem idx_x0 (i : S16x64.Idx) (k : Fin 131072) :
    idx_main_v0 (idx_main_v1 (idx_main_v3 (idx_main_v17 i k))) = Cert.Histo.sampleIx k (i 0) := by
  have hk : k.val < 131072 := k.isLt
  have hi : (i 0).val < 16 := (i 0).isLt
  funext a
  match a with
  | ⟨0, _⟩ => exact Fin.ext (by show (k.val * 16 + (i 0).val) / 16384 = k.val / 1024; omega)
  | ⟨1, _⟩ => exact Fin.ext (by show (k.val * 16 + (i 0).val) / 16 % 1024 = k.val % 1024; omega)
  | ⟨2, _⟩ => exact Fin.ext (by show (k.val * 16 + (i 0).val) % 16 = (i 0).val; omega)

/-- The bin centre read for row `k` and bin `i` is the centre of bin `i`, whatever the row. -/
theorem idx_x1 (i : S16x64.Idx) (k : Fin 131072) :
    idx_main_v2 (idx_main_v4 (idx_main_v17 i k)) = i := by
  funext a
  match a with
  | ⟨0, _⟩ => rfl
  | ⟨1, _⟩ => rfl

/-- The bin width read for row `k` and bin `i = (f, b)` is the width of feature `f`. -/
theorem idx_x2 (i : S16x64.Idx) (k : Fin 131072) :
    idx_main_v7 (idx_main_v10 (idx_main_v17 i k)) = ix1 (i 0) := by
  funext a
  match a with
  | ⟨0, _⟩ => rfl

/-! ## The order argument -/

/-- On the extended reals, `max (h - a) 0` is above zero exactly when `a` is below `h`: the two comparisons give the
    same bit. (`0 < h - a ↔ a < h` holds at every extended real, the infinities included.) -/
theorem cmp_window (a h z : EReal) (hz : z = 0) : Ideal.cmp .ogt (max (h - a) z) z = Ideal.cmp .olt a h := by
  subst hz
  show BitVec.ofBool (decide (0 < max (h - a) 0)) = BitVec.ofBool (decide (a < h))
  congr 1
  rw [decide_eq_decide, lt_max_iff, EReal.sub_pos]
  exact or_iff_left (lt_irrefl 0)

/-- The reference's test at one sample: with `h` the bin width `d` times the float one half, `[max (h - |x - l|) 0 > 0]`
    read as a number is the specification's `hit x l (half d)`; the two zeros are the zero word. -/
theorem hit_of_window (x l d : EReal) :
    (((Ideal.cmp .ogt (max (d * Ideal.ofBits .f32 0x3F000000#32 - max (x - l) (-(x - l))) (Ideal.ofBits .f32 0x00000000#32))
        (Ideal.ofBits .f32 0x00000000#32)).toNat : ℝ) : EReal) = Cert.Histo.hit x l (Cert.Histo.half d) := by
  unfold Cert.Histo.hit Cert.Histo.half
  rw [mul_comm d, cmp_window _ _ _ Ideal.ofBits_zero_f32]

/-! ## The count -/

/-- The reference's sum over the rows, before its normalisation, is the specification's count of every bin. -/
theorem ref_count (x0 : (⟨S128x1024x16, .f32⟩ : BufTy).Contents (Elt Ideal)) (x1 : (⟨S16x64, .f32⟩ : BufTy).Contents (Elt Ideal)) (x2 : (⟨S16, .f32⟩ : BufTy).Contents (Elt Ideal)) :
    Cert.ReferenceIdeal.Read.val_main_v17 (F := Ideal) x0 x1 x2 = Cert.Histo.cnt x0 x1 x2 := by
  funext i
  -- the sum starts from the zero word, which is 0
  rw [val_main_v17_apply, val_main_cst_2_apply]
  unfold Cert.Histo.cnt
  show Ideal.ofBits .f32 0x00000000#32 + _ = _
  rw [Ideal.ofBits_zero_f32, zero_add]
  -- one row at a time: read the summand down to the three arguments, each at the index found above
  refine Finset.sum_congr rfl fun k _ => ?_
  rw [val_main_v16_apply, val_main_v15_apply, val_main_v13_apply, val_main_v14_apply, val_main_cst_1_apply,
    val_main_v11_apply, val_main_v12_apply, val_main_cst_0_apply, val_main_v10_apply, val_main_v9_apply,
    val_main_v7_apply, val_main_v8_apply, val_main_cst_apply, val_main_v6_apply, val_main_v5_apply,
    val_main_v3_apply, val_main_v1_apply, val_main_v0_apply, val_main_v4_apply, val_main_v2_apply,
    idx_x0, idx_x1, idx_x2]
  -- on the extended reals the operations are the order's and the field's own: the summand is the window test
  exact hit_of_window _ _ _

end Cert.Histo.Ref

end
-- ==== Proof.Bridge.lean ====
/-
  The two idealized programs compute one number.

  Both end by the same normalisation of a [16, 64] array of per-bin counts: divide by the number of rows, 131072, and
  by the bin width of the feature, take the distance to the stored density, average over the 64 bins and then over
  the 16 features. The kernel's counts are the two rows of its output array added; the reference's are one sum over
  all rows. Each is the specification's count, so the two results are one term of the argument arrays.
-/
import proofs.«155783_j79645873537299_2_alg».proof.Proof.IdealCount
import proofs.«155783_j79645873537299_2_alg».proof.Proof.RefCount
import proofs.«155783_j79645873537299_2_alg».proof.Proof.Gen.ReferenceIdeal.Run
import proofs.«155783_j79645873537299_2_alg».proof.Proof.Gen.ReferenceIdeal.Read

set_option maxRecDepth 16384

noncomputable section

namespace Cert.Histo.Bridge

open Idealize.ShloMosaic Idealize.ShloMosaic.TcCoe Idealize.SL.Sem
open Cert.Histo.Ker

/-- The loss as one function of the four argument arrays. -/
def loss (x0 : FVec Ideal Cert.KernelIdeal.S128x1024x16 .f32) (x1 : FVec Ideal Cert.KernelIdeal.S16x64 .f32)
    (x2 : FVec Ideal Cert.KernelIdeal.S16 .f32) (x3 : FVec Ideal Cert.KernelIdeal.S16x64 .f32) : FVec Ideal Cert.KernelIdeal.S_ .f32 :=
  normTail (Cert.Histo.cnt x0 x1 x2) x2 x3

section Kernel
open Cert.KernelIdeal Cert.KernelIdeal.Gen Cert.KernelIdeal.Body

/-- The idealized kernel runs to the end with its result at the loss of its arguments, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v23)
        = loss (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v23 (Pipeline.mem_restRefs_of main_v23 (by decide) (by decide))).trans
        ((tail_eq m c).trans (by unfold loss; rw [kcount_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Kernel

section Reference
open Cert.ReferenceIdeal Cert.ReferenceIdeal.Gen Cert.ReferenceIdeal.Read

/-- The reference's last stage is the same normalisation applied to its own sum over the rows. -/
theorem ref_tail (x0 : (⟨S128x1024x16, .f32⟩ : BufTy).Contents (Elt Ideal)) (x1 : (⟨S16x64, .f32⟩ : BufTy).Contents (Elt Ideal))
    (x2 : (⟨S16, .f32⟩ : BufTy).Contents (Elt Ideal)) (x3 : (⟨S16x64, .f32⟩ : BufTy).Contents (Elt Ideal)) :
    val_main_v29 (F := Ideal) x0 x1 x2 x3 = normTail (val_main_v17 (F := Ideal) x0 x1 x2) x2 x3 := rfl

/-- So the reference's result is the loss of its arguments. -/
theorem ref_loss (x0 : (⟨S128x1024x16, .f32⟩ : BufTy).Contents (Elt Ideal)) (x1 : (⟨S16x64, .f32⟩ : BufTy).Contents (Elt Ideal))
    (x2 : (⟨S16, .f32⟩ : BufTy).Contents (Elt Ideal)) (x3 : (⟨S16x64, .f32⟩ : BufTy).Contents (Elt Ideal)) :
    val_main_v29 (F := Ideal) x0 x1 x2 x3 = loss x0 x1 x2 x3 := by
  rw [ref_tail, Cert.Histo.Ref.ref_count]; rfl

end Reference

end Cert.Histo.Bridge

end
-- ==== Proof.lean ====
/-
  A soft-histogram loss: a tiled kernel against its plain reference, equal on the extended reals.

  For each of 16 features and 64 bins, count the samples of the feature (131072 rows of 16 features) that lie strictly
  within half a bin width of the bin's centre; divide the count by the number of rows and by the bin width, take the
  distance to a stored density, and average over bins and then over features. The reference forms every indicator at
  once and sums over all rows. The kernel walks a grid of 2 rows of 64 points; each point takes 1024 sample rows, spread
  over the 1024 lanes `64·feature + bin`, adds the column sums of its indicator block to the grid row's slice of a scratch
  accumulator (zeroed at the row's first point) and at the row's last point copies the slice to the output; the host adds
  the two slices and normalises.

  The two differ in three ways, none of which matters on the extended reals: the indicator is `|x - l| < h` in the
  kernel and `max (h - |x - l|) 0 > 0` in the reference (`0 < h - a ↔ a < h` holds at every extended real); the
  half-width is `0.5 · w` against `w · 0.5`; and the sum over the rows is grouped by point and by grid row (addition is
  associative and commutative). The finiteness of the inputs is never used.

  The frames: each program runs to the end, faults nowhere and leaves its arguments as launched. For the two kernels
  the grid's invariant says that before a point which does not start a grid row, the row's slice of the scratch
  accumulator holds the running sum of the points before it; the reference is straight-line host code.
-/
import proofs.«155783_j79645873537299_2_alg».proof.Defs
import proofs.«155783_j79645873537299_2_alg».proof.Proof.Gen.Kernel
import proofs.«155783_j79645873537299_2_alg».proof.Proof.Gen.KernelIdeal
import proofs.«155783_j79645873537299_2_alg».proof.Proof.Gen.ReferenceIdeal
import proofs.«155783_j79645873537299_2_alg».proof.Proof.Gen.ReferenceIdeal.Run
import proofs.«155783_j79645873537299_2_alg».proof.Proof.Gen.ReferenceIdeal.Read
import proofs.«155783_j79645873537299_2_alg».proof.Proof.Gen.Pre_finite_inputs
import proofs.«155783_j79645873537299_2_alg».proof.Proof.BitsRun
import proofs.«155783_j79645873537299_2_alg».proof.Proof.IdealRun
import proofs.«155783_j79645873537299_2_alg».proof.Proof.Bridge
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Body.frame m ρ
/-- So does its idealization. -/
theorem frame_kernelIdeal : Cert.frame_KernelIdeal := fun m ρ _ => Cert.KernelIdeal.Body.frame m ρ
/-- And the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial

/-- From memories that agree on the arguments both idealized programs end at the loss of those arguments. -/
theorem algebraic : Cert.algebraic_KernelIdeal_ReferenceIdeal := by
  intro m ρ m' ρ' _ hagree
  refine ⟨_, Cert.Histo.Bridge.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Cert.Histo.Bridge.ref_loss,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
